-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S6x64x192 : Shape := ⟨3, ![6, 64, 192]⟩
abbrev S6x3136 : Shape := ⟨2, ![6, 3136]⟩
abbrev S6 : Shape := ⟨1, ![6]⟩
abbrev S256x192 : Shape := ⟨2, ![256, 192]⟩
abbrev S256 : Shape := ⟨1, ![256]⟩
abbrev S192x256 : Shape := ⟨2, ![192, 256]⟩
abbrev S192 : Shape := ⟨1, ![192]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S6x64x192 : S_.BroadcastsInDim S6x64x192 (![] : Fin 0 → Fin S6x64x192.rank)
  reducesTo_S6x64x192_S_d0_1_2 : S6x64x192.ReducesTo [0, 1, 2] S_
  bcast_S_S6x3136 : S_.BroadcastsInDim S6x3136 (![] : Fin 0 → Fin S6x3136.rank)
  reducesTo_S6x3136_S_d0_1 : S6x3136.ReducesTo [0, 1] S_
  bcast_S_S6 : S_.BroadcastsInDim S6 (![] : Fin 0 → Fin S6.rank)
  reducesTo_S6_S_d0 : S6.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S192x256 : S_.BroadcastsInDim S192x256 (![] : Fin 0 → Fin S192x256.rank)
  reducesTo_S192x256_S_d0_1 : S192x256.ReducesTo [0, 1] S_
  bcast_S_S192 : S_.BroadcastsInDim S192 (![] : Fin 0 → Fin S192.rank)
  reducesTo_S192_S_d0 : S192.ReducesTo [0] S_

variable [Facts]

def fn_part3 {F : FTy → Type} [FloatOps F] (main_arg11 : FVec F S192 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  main_v58

def fn_part2 {F : FTy → Type} [FloatOps F] (main_arg7 : FVec F S256 .f32) (main_arg8 : FVec F S192x256 .f32) (main_arg9 : FVec F S192 .f32) (main_arg10 : FVec F S192 .f32) (main_arg11 : FVec F S192 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S192x256 .f32 := Host.absf main_arg8
  let main_cst_14 : FVec F S_ .f32 := constant S_ .f32 0x7F800000#32
  let main_v40 : FVec F S192x256 .f32 := broadcastInDim S192x256 ![] bcast_S_S192x256 main_cst_14
  let main_v41 : IVec S192x256 1 := cmpf .olt main_v39 main_v40
  let main_c_15 : IVec S_ 1 := constantI S_ 1 1#1
  let main_v42 : IVec S_ 1 := (fun x v => Host.reduce IntOp.andi x v reducesTo_S192x256_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192 .f32 := Host.absf main_arg10
  let main_cst_18 : FVec F S_ .f32 := constant S_ .f32 0x7F800000#32
  let main_v50 : FVec F S192 .f32 := broadcastInDim S192 ![] bcast_S_S192 main_cst_18
  fn_part3 (F := F) main_arg11 main_v48 main_v49 main_v50

def fn_part1 {F : FTy → Type} [FloatOps F] (main_arg4 : FVec F S256x192 .f32) (main_arg5 : FVec F S256 .f32) (main_arg6 : FVec F S256x192 .f32) (main_arg7 : FVec F S256 .f32) (main_arg8 : FVec F S192x256 .f32) (main_arg9 : FVec F S192 .f32) (main_arg10 : FVec F S192 .f32) (main_arg11 : FVec F S192 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S256x192 .f32 := Host.absf main_arg4
  let main_cst_6 : FVec F S_ .f32 := constant S_ .f32 0x7F800000#32
  let main_v20 : FVec F S256x192 .f32 := broadcastInDim S256x192 ![] bcast_S_S256x192 main_cst_6
  let main_v21 : IVec S256x192 1 := cmpf .olt main_v19 main_v20
  let main_c_7 : IVec S_ 1 := constantI S_ 1 1#1
  let main_v22 : IVec S_ 1 := (fun x v => Host.reduce IntOp.andi x v reducesTo_S256x192_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x256x56x56 .f32) (main_arg1 : FVec F S6x64x192 .f32) (main_arg2 : FVec F S6x3136 .f32) (main_arg3 : FVec F S6 .f32) (main_arg4 : FVec F S256x192 .f32) (main_arg5 : FVec F S256 .f32) (main_arg6 : FVec F S256x192 .f32) (main_arg7 : FVec F S256 .f32) (main_arg8 : FVec F S192x256 .f32) (main_arg9 : FVec F S192 .f32) (main_arg10 : FVec F S192 .f32) (main_arg11 : FVec F S192 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S6x64x192 .f32 := Host.absf main_arg1
  let main_cst_0 : FVec F S_ .f32 := constant S_ .f32 0x7F800000#32
  let main_v5 : FVec F S6x64x192 .f32 := broadcastInDim S6x64x192 ![] bcast_S_S6x64x192 main_cst_0
  let main_v6 : IVec S6x64x192 1 := cmpf .olt main_v4 main_v5
  let main_c_1 : IVec S_ 1 := constantI S_ 1 1#1
  let main_v7 : IVec S_ 1 := (fun x v => Host.reduce IntOp.andi x v reducesTo_S6x64x192_S_d0_1_2 h_S_) main_v6 main_c_1
  let main_v8 : IVec S_ 1 := andi main_v3 main_v7
  let main_v9 : FVec F S6x3136 .f32 := Host.absf main_arg2
  let main_cst_2 : FVec F S_ .f32 := constant S_ .f32 0x7F800000#32
  let main_v10 : FVec F S6x3136 .f32 := broadcastInDim S6x3136 ![] bcast_S_S6x3136 main_cst_2
  let main_v11 : IVec S6x3136 1 := cmpf .olt main_v9 main_v10
  let main_c_3 : IVec S_ 1 := constantI S_ 1 1#1
  let main_v12 : IVec S_ 1 := (fun x v => Host.reduce IntOp.andi x v reducesTo_S6x3136_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_arg8 main_arg9 main_arg10 main_arg11 main_v13 main_v16
-- ==== Kernel.lean ====
abbrev S64x256x56x56 : Shape := ⟨4, ![64, 256, 56, 56]⟩
abbrev S6x64x192 : Shape := ⟨3, ![6, 64, 192]⟩
abbrev S6x3136 : Shape := ⟨2, ![6, 3136]⟩
abbrev S6 : Shape := ⟨1, ![6]⟩
abbrev S256x192 : Shape := ⟨2, ![256, 192]⟩
abbrev S256 : Shape := ⟨1, ![256]⟩
abbrev S192x256 : Shape := ⟨2, ![192, 256]⟩
abbrev S192 : Shape := ⟨1, ![192]⟩
abbrev S64x256x3136 : Shape := ⟨3, ![64, 256, 3136]⟩
abbrev S64x6x192 : Shape := ⟨3, ![64, 6, 192]⟩
abbrev S64x4x6x3136 : Shape := ⟨4, ![64, 4, 6, 3136]⟩
abbrev S1x256x3136 : Shape := ⟨3, ![1, 256, 3136]⟩
abbrev S1x6x192 : Shape := ⟨3, ![1, 6, 192]⟩
abbrev S1x4x6x3136 : Shape := ⟨4, ![1, 4, 6, 3136]⟩
abbrev S256x3136 : Shape := ⟨2, ![256, 3136]⟩
abbrev S6x192 : Shape := ⟨2, ![6, 192]⟩
abbrev S6x256 : Shape := ⟨2, ![6, 256]⟩
abbrev S6x1 : Shape := ⟨2, ![6, 1]⟩
abbrev S1x256 : Shape := ⟨2, ![1, 256]⟩
abbrev S6x4x64 : Shape := ⟨3, ![6, 4, 64]⟩
abbrev S4x6x64 : Shape := ⟨3, ![4, 6, 64]⟩
abbrev S4x64x3136 : Shape := ⟨3, ![4, 64, 3136]⟩
abbrev S4x6x3136 : Shape := ⟨3, ![4, 6, 3136]⟩
abbrev S4x6 : Shape := ⟨2, ![4, 6]⟩
abbrev S4x6x1 : Shape := ⟨3, ![4, 6, 1]⟩
abbrev S1x192 : Shape := ⟨2, ![1, 192]⟩
abbrev S64x4x6x56x56 : Shape := ⟨5, ![64, 4, 6, 56, 56]⟩

abbrev nBuf : Space → Nat
  | .hbm => 18
  | .vmem => 18
  | .smem => 0
  | _ => 0

abbrev bufTy : (tb : Table) → Fin (tcTables nBuf tb) → BufTy
  | .hbm, ⟨0, _⟩ => ⟨S64x256x56x56, .f32⟩
  | .hbm, ⟨1, _⟩ => ⟨S6x64x192, .f32⟩
  | .hbm, ⟨2, _⟩ => ⟨S6x3136, .f32⟩
  | .hbm, ⟨3, _⟩ => ⟨S6, .f32⟩
  | .hbm, ⟨4, _⟩ => ⟨S256x192, .f32⟩
  | .hbm, ⟨5, _⟩ => ⟨S256, .f32⟩
  | .hbm, ⟨6, _⟩ => ⟨S256x192, .f32⟩
  | .hbm, ⟨7, _⟩ => ⟨S256, .f32⟩
  | .hbm, ⟨8, _⟩ => ⟨S192x256, .f32⟩
  | .hbm, ⟨9, _⟩ => ⟨S192, .f32⟩
  | .hbm, ⟨10, _⟩ => ⟨S192, .f32⟩
  | .hbm, ⟨11, _⟩ => ⟨S192, .f32⟩
  | .hbm, ⟨12, _⟩ => ⟨S64x256x3136, .f32⟩
  | .hbm, ⟨13, _⟩ => ⟨S64x6x192, .f32⟩
  | .hbm, ⟨14, _⟩ => ⟨S64x6x192, .f32⟩
  | .hbm, ⟨15, _⟩ => ⟨S64x4x6x3136, .f32⟩
  | .hbm, ⟨16, _⟩ => ⟨S6x64x192, .f32⟩
  | .hbm, ⟨17, _⟩ => ⟨S64x4x6x56x56, .f32⟩
  | .local _ .vmem, ⟨0, _⟩ => ⟨S1x256x3136, .f32⟩
  | .local _ .vmem, ⟨1, _⟩ => ⟨S1x256x3136, .f32⟩
  | .local _ .vmem, ⟨2, _⟩ => ⟨S1x6x192, .f32⟩
  | .local _ .vmem, ⟨3, _⟩ => ⟨S1x6x192, .f32⟩
  | .local _ .vmem, ⟨4, _⟩ => ⟨S6x3136, .f32⟩
  | .local _ .vmem, ⟨5, _⟩ => ⟨S6, .f32⟩
  | .local _ .vmem, ⟨6, _⟩ => ⟨S256x192, .f32⟩
  | .local _ .vmem, ⟨7, _⟩ => ⟨S256, .f32⟩
  | .local _ .vmem, ⟨8, _⟩ => ⟨S256x192, .f32⟩
  | .local _ .vmem, ⟨9, _⟩ => ⟨S256, .f32⟩
  | .local _ .vmem, ⟨10, _⟩ => ⟨S192x256, .f32⟩
  | .local _ .vmem, ⟨11, _⟩ => ⟨S192, .f32⟩
  | .local _ .vmem, ⟨12, _⟩ => ⟨S192, .f32⟩
  | .local _ .vmem, ⟨13, _⟩ => ⟨S192, .f32⟩
  | .local _ .vmem, ⟨14, _⟩ => ⟨S1x6x192, .f32⟩
  | .local _ .vmem, ⟨15, _⟩ => ⟨S1x6x192, .f32⟩
  | .local _ .vmem, ⟨16, _⟩ => ⟨S1x4x6x3136, .f32⟩
  | .local _ .vmem, ⟨17, _⟩ => ⟨S1x4x6x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x3136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x6x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x6x3136 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S64x256x56x56_S64x256x3136 : S64x256x56x56.ShapeCasts S64x256x3136
  transposes_S6x64x192_S64x6x192_1_0_2 : S6x64x192.Transposes [1, 0, 2] S64x6x192
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  bitsLt_bf16_f32 : FTy.bits .bf16 < FTy.bits .f32
  inb_S1x6x192_S1x6x192_0_0_0 : ∀ a, (![0, 0, 0] : Fin 3 → Nat) a + S1x6x192.size a ≤ S1x6x192.size a
  h_S1x6x192 : 0 < S1x6x192.numel
  shapeCasts_S1x6x192_S6x192 : S1x6x192.ShapeCasts S6x192
  inb_S6x3136_S6x3136_0_0 : ∀ a, (![0, 0] : Fin 2 → Nat) a + S6x3136.size a ≤ S6x3136.size a
  h_S6x3136 : 0 < S6x3136.numel
  inb_S6_S6_0 : ∀ a, (![0] : Fin 1 → Nat) a + S6.size a ≤ S6.size a
  h_S6 : 0 < S6.numel
  inb_S256x192_S256x192_0_0 : ∀ a, (![0, 0] : Fin 2 → Nat) a + S256x192.size a ≤ S256x192.size a
  h_S256x192 : 0 < S256x192.numel
  inb_S256_S256_0 : ∀ a, (![0] : Fin 1 → Nat) a + S256.size a ≤ S256.size a
  h_S256 : 0 < S256.numel
  inb_S192x256_S192x256_0_0 : ∀ a, (![0, 0] : Fin 2 → Nat) a + S192x256.size a ≤ S192x256.size a
  h_S192x256 : 0 < S192x256.numel
  inb_S192_S192_0 : ∀ a, (![0] : Fin 1 → Nat) a + S192.size a ≤ S192.size a
  h_S192 : 0 < S192.numel
  shapeCasts_S6_S6x1 : S6.ShapeCasts S6x1
  broadcasts_S6x1_S6x256 : S6x1.Broadcasts S6x256
  shapeCasts_S256_S1x256 : S256.ShapeCasts S1x256
  broadcasts_S1x256_S6x256 : S1x256.Broadcasts S6x256
  shapeCasts_S6x256_S6x4x64 : S6x256.ShapeCasts S6x4x64
  transposes_S6x4x64_p1_0_2_S4x6x64 : S6x4x64.Transposes [1, 0, 2] S4x6x64
  shapeCasts_S256x3136_S4x64x3136 : S256x3136.ShapeCasts S4x64x3136
  reduces_S4x6x3136_S4x6 : S4x6x3136.Reduces [2] S4x6
  shapeCasts_S4x6_S4x6x1 : S4x6.ShapeCasts S4x6x1
  broadcasts_S4x6x1_S4x6x3136 : S4x6x1.Broadcasts S4x6x3136
  transposes_S4x6x64_p1_0_2_S6x4x64 : S4x6x64.Transposes [1, 0, 2] S6x4x64
  shapeCasts_S6x4x64_S6x256 : S6x4x64.ShapeCasts S6x256
  shapeCasts_S192_S1x192 : S192.ShapeCasts S1x192
  broadcasts_S1x192_S6x192 : S1x192.Broadcasts S6x192
  reduces_S6x192_S6 : S6x192.Reduces [1] S6
  broadcasts_S6x1_S6x192 : S6x1.Broadcasts S6x192
  shapeCasts_S6x192_S1x6x192 : S6x192.ShapeCasts S1x6x192
  inb_S1x4x6x3136_S1x4x6x3136_0_0_0_0 : ∀ a, (![0, 0, 0, 0] : Fin 4 → Nat) a + S1x4x6x3136.size a ≤ S1x4x6x3136.size a
  h_S1x4x6x3136 : 0 < S1x4x6x3136.numel
  shapeCasts_S1x4x6x3136_S4x6x3136 : S1x4x6x3136.ShapeCasts S4x6x3136
  shapeCasts_S4x6x3136_S1x4x6x3136 : S4x6x3136.ShapeCasts S1x4x6x3136
  transposes_S64x6x192_S6x64x192_1_0_2 : S64x6x192.Transposes [1, 0, 2] S6x64x192
  shapeCasts_S64x4x6x3136_S64x4x6x56x56 : S64x4x6x3136.ShapeCasts S64x4x6x56x56
  dot_S6x3136_S256x3136_S6x256_1_1_0_0_n_n_wf : DotDims.WF S6x3136 S256x3136 S6x256 [1] [1] [0] [0] [] []
  dot_S6x192_S256x192_S6x256_1_1_0_0_n_n_wf : DotDims.WF S6x192 S256x192 S6x256 [1] [1] [0] [0] [] []
  dot_S4x6x64_S4x64x3136_S4x6x3136_2_1_1_2_0_0_wf : DotDims.WF S4x6x64 S4x64x3136 S4x6x3136 [2] [1] [1] [2] [0] [0]
  dot_S4x6x3136_S4x64x3136_S4x6x64_2_2_1_1_0_0_wf : DotDims.WF S4x6x3136 S4x64x3136 S4x6x64 [2] [2] [1] [1] [0] [0]
  dot_S6x256_S192x256_S6x192_1_1_0_0_n_n_wf : DotDims.WF S6x256 S192x256 S6x192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S64x256x3136.size a
  hwx0_0 : ∀ i : grid0.Coords, EltTy.bits .f32 = 32 ∨ (Rect.block (s := S64x256x3136) S1x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x192.size a ≤ S64x6x192.size a
  hwx0_1 : ∀ i : grid0.Coords, EltTy.bits .f32 = 32 ∨ (Rect.block (s := S64x6x192) S1x6x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x3136.size a ≤ S6x3136.size a
  hwx0_2 : ∀ i : grid0.Coords, EltTy.bits .f32 = 32 ∨ (Rect.block (s := S6x3136) S6x3136.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x192.size a ≤ S256x192.size a
  hwx0_4 : ∀ i : grid0.Coords, EltTy.bits .f32 = 32 ∨ (Rect.block (s := S256x192) S256x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x192.size a ≤ S256x192.size a
  hwx0_6 : ∀ i : grid0.Coords, EltTy.bits .f32 = 32 ∨ (Rect.block (s := S256x192) S256x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x256.size a ≤ S192x256.size a
  hwx0_8 : ∀ i : grid0.Coords, EltTy.bits .f32 = 32 ∨ (Rect.block (s := S192x256) S192x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192.size a ≤ S192.size a
  hwx0_9 : ∀ i : grid0.Coords, EltTy.bits .f32 = 32 ∨ (Rect.block (s := S192) S192.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192.size a ≤ S192.size a
  hwx0_10 : ∀ i : grid0.Coords, EltTy.bits .f32 = 32 ∨ (Rect.block (s := S192) S192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192.size a ≤ S192.size a
  hwx0_11 : ∀ i : grid0.Coords, EltTy.bits .f32 = 32 ∨ (Rect.block (s := S192) S192.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x6x192.size a ≤ S64x6x192.size a
  hwx0_12 : ∀ i : grid0.Coords, EltTy.bits .f32 = 32 ∨ (Rect.block (s := S64x6x192) S1x6x192.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4x6x3136.size a ≤ S64x4x6x3136.size a
  hwx0_13 : ∀ i : grid0.Coords, EltTy.bits .f32 = 32 ∨ (Rect.block (s := S64x4x6x3136) S1x4x6x3136.size (cc0_transform_13 i) (hinb0_13 i)).WholeWords (EltTy.packing .f32)

variable [Facts₀]

def dot_S6x3136_S256x3136_S6x256_1_1_0_0_n_n : DotDims S6x3136 S256x3136 S6x256 where
  lhsContracting := [1]
  rhsContracting := [1]
  lhsNonContracting := [0]
  rhsNonContracting := [0]
  lhsBatch := []
  rhsBatch := []
  wf := dot_S6x3136_S256x3136_S6x256_1_1_0_0_n_n_wf
def dot_S6x192_S256x192_S6x256_1_1_0_0_n_n : DotDims S6x192 S256x192 S6x256 where
  lhsContracting := [1]
  rhsContracting := [1]
  lhsNonContracting := [0]
  rhsNonContracting := [0]
  lhsBatch := []
  rhsBatch := []
  wf := dot_S6x192_S256x192_S6x256_1_1_0_0_n_n_wf
def dot_S4x6x64_S4x64x3136_S4x6x3136_2_1_1_2_0_0 : DotDims S4x6x64 S4x64x3136 S4x6x3136 where
  lhsContracting := [2]
  rhsContracting := [1]
  lhsNonContracting := [1]
  rhsNonContracting := [2]
  lhsBatch := [0]
  rhsBatch := [0]
  wf := dot_S4x6x64_S4x64x3136_S4x6x3136_2_1_1_2_0_0_wf
def dot_S4x6x3136_S4x64x3136_S4x6x64_2_2_1_1_0_0 : DotDims S4x6x3136 S4x64x3136 S4x6x64 where
  lhsContracting := [2]
  rhsContracting := [2]
  lhsNonContracting := [1]
  rhsNonContracting := [1]
  lhsBatch := [0]
  rhsBatch := [0]
  wf := dot_S4x6x3136_S4x64x3136_S4x6x64_2_2_1_1_0_0_wf
def dot_S6x256_S192x256_S6x192_1_1_0_0_n_n : DotDims S6x256 S192x256 S6x192 where
  lhsContracting := [1]
  rhsContracting := [1]
  lhsNonContracting := [0]
  rhsNonContracting := [0]
  lhsBatch := []
  rhsBatch := []
  wf := dot_S6x256_S192x256_S6x192_1_1_0_0_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x3136.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S192x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2_0) S1x6x192.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_1) S1x4x6x3136.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S6x64x192 : Shape := ⟨3, ![6, 64, 192]⟩
abbrev S6x3136 : Shape := ⟨2, ![6, 3136]⟩
abbrev S6 : Shape := ⟨1, ![6]⟩
abbrev S256x192 : Shape := ⟨2, ![256, 192]⟩
abbrev S256 : Shape := ⟨1, ![256]⟩
abbrev S192x256 : Shape := ⟨2, ![192, 256]⟩
abbrev S192 : Shape := ⟨1, ![192]⟩
abbrev S64x256x3136 : Shape := ⟨3, ![64, 256, 3136]⟩
abbrev S6x64x256 : Shape := ⟨3, ![6, 64, 256]⟩
abbrev S6x1x1 : Shape := ⟨3, ![6, 1, 1]⟩
abbrev S1x1x256 : Shape := ⟨3, ![1, 1, 256]⟩
abbrev S6x64x4x64 : Shape := ⟨4, ![6, 64, 4, 64]⟩
abbrev S64x4x6x64 : Shape := ⟨4, ![64, 4, 6, 64]⟩
abbrev S64x4x64x3136 : Shape := ⟨4, ![64, 4, 64, 3136]⟩
abbrev S64x4x6x3136 : Shape := ⟨4, ![64, 4, 6, 3136]⟩
abbrev S_ : Shape := ⟨0, ![]⟩
abbrev S64x4x6 : Shape := ⟨3, ![64, 4, 6]⟩
abbrev S64x4x6x1 : Shape := ⟨4, ![64, 4, 6, 1]⟩
abbrev S1x1x192 : Shape := ⟨3, ![1, 1, 192]⟩
abbrev S6x64 : Shape := ⟨2, ![6, 64]⟩
abbrev S6x64x1 : Shape := ⟨3, ![6, 64, 1]⟩
abbrev S64x4x6x56x56 : Shape := ⟨5, ![64, 4, 6, 56, 56]⟩

abbrev nBuf : Space → Nat
  | .hbm => 103
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S6x64x192, .f32⟩
  | .hbm, ⟨2, _⟩ => ⟨S6x3136, .f32⟩
  | .hbm, ⟨3, _⟩ => ⟨S6, .f32⟩
  | .hbm, ⟨4, _⟩ => ⟨S256x192, .f32⟩
  | .hbm, ⟨5, _⟩ => ⟨S256, .f32⟩
  | .hbm, ⟨6, _⟩ => ⟨S256x192, .f32⟩
  | .hbm, ⟨7, _⟩ => ⟨S256, .f32⟩
  | .hbm, ⟨8, _⟩ => ⟨S192x256, .f32⟩
  | .hbm, ⟨9, _⟩ => ⟨S192, .f32⟩
  | .hbm, ⟨10, _⟩ => ⟨S192, .f32⟩
  | .hbm, ⟨11, _⟩ => ⟨S192, .f32⟩
  | .hbm, ⟨12, _⟩ => ⟨S64x256x3136, .f32⟩
  | .hbm, ⟨13, _⟩ => ⟨S6x64x256, .f32⟩
  | .hbm, ⟨14, _⟩ => ⟨S6x1x1, .f32⟩
  | .hbm, ⟨15, _⟩ => ⟨S6x64x256, .f32⟩
  | .hbm, ⟨16, _⟩ => ⟨S6x64x256, .f32⟩
  | .hbm, ⟨17, _⟩ => ⟨S6x64x256, .f32⟩
  | .hbm, ⟨18, _⟩ => ⟨S1x1x256, .f32⟩
  | .hbm, ⟨19, _⟩ => ⟨S6x64x256, .f32⟩
  | .hbm, ⟨20, _⟩ => ⟨S6x64x256, .f32⟩
  | .hbm, ⟨21, _⟩ => ⟨S6x64x4x64, .f32⟩
  | .hbm, ⟨22, _⟩ => ⟨S64x4x6x64, .f32⟩
  | .hbm, ⟨23, _⟩ => ⟨S64x4x64x3136, .f32⟩
  | .hbm, ⟨24, _⟩ => ⟨S64x4x6x3136, .f32⟩
  | .hbm, ⟨25, _⟩ => ⟨S_, .f32⟩
  | .hbm, ⟨26, _⟩ => ⟨S64x4x6x3136, .f32⟩
  | .hbm, ⟨27, _⟩ => ⟨S64x4x6x3136, .f32⟩
  | .hbm, ⟨28, _⟩ => ⟨S_, .f32⟩
  | .hbm, ⟨29, _⟩ => ⟨S64x4x6, .f32⟩
  | .hbm, ⟨30, _⟩ => ⟨S_, .f32⟩
  | .hbm, ⟨31, _⟩ => ⟨S64x4x6, .f32⟩
  | .hbm, ⟨32, _⟩ => ⟨S64x4x6, .f32⟩
  | .hbm, ⟨33, _⟩ => ⟨S64x4x6x1, .f32⟩
  | .hbm, ⟨34, _⟩ => ⟨S64x4x6x3136, .f32⟩
  | .hbm, ⟨35, _⟩ => ⟨S64x4x6x3136, .f32⟩
  | .hbm, ⟨36, _⟩ => ⟨S64x4x6x3136, .f32⟩
  | .hbm, ⟨37, _⟩ => ⟨S_, .f32⟩
  | .hbm, ⟨38, _⟩ => ⟨S64x4x6, .f32⟩
  | .hbm, ⟨39, _⟩ => ⟨S64x4x6x1, .f32⟩
  | .hbm, ⟨40, _⟩ => ⟨S64x4x6x3136, .f32⟩
  | .hbm, ⟨41, _⟩ => ⟨S64x4x6x3136, .f32⟩
  | .hbm, ⟨42, _⟩ => ⟨S64x4x6x64, .f32⟩
  | .hbm, ⟨43, _⟩ => ⟨S6x64x4x64, .f32⟩
  | .hbm, ⟨44, _⟩ => ⟨S6x64x256, .f32⟩
  | .hbm, ⟨45, _⟩ => ⟨S6x64x256, .f32⟩
  | .hbm, ⟨46, _⟩ => ⟨S6x64x256, .f32⟩
  | .hbm, ⟨47, _⟩ => ⟨S1x1x256, .f32⟩
  | .hbm, ⟨48, _⟩ => ⟨S6x64x256, .f32⟩
  | .hbm, ⟨49, _⟩ => ⟨S6x64x256, .f32⟩
  | .hbm, ⟨50, _⟩ => ⟨S_, .f32⟩
  | .hbm, ⟨51, _⟩ => ⟨S6x64x256, .f32⟩
  | .hbm, ⟨52, _⟩ => ⟨S6x64x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S6x64x256, .f32⟩
  | .hbm, ⟨57, _⟩ => ⟨S6x64x256, .f32⟩
  | .hbm, ⟨58, _⟩ => ⟨S_, .f32⟩
  | .hbm, ⟨59, _⟩ => ⟨S6x64x256, .f32⟩
  | .hbm, ⟨60, _⟩ => ⟨S6x64x256, .f32⟩
  | .hbm, ⟨61, _⟩ => ⟨S_, .f32⟩
  | .hbm, ⟨62, _⟩ => ⟨S6x64x256, .f32⟩
  | .hbm, ⟨63, _⟩ => ⟨S6x64x256, .f32⟩
  | .hbm, ⟨64, _⟩ => ⟨S_, .f32⟩
  | .hbm, ⟨65, _⟩ => ⟨S6x64x256, .f32⟩
  | .hbm, ⟨66, _⟩ => ⟨S6x64x256, .f32⟩
  | .hbm, ⟨67, _⟩ => ⟨S6x64x256, .f32⟩
  | .hbm, ⟨68, _⟩ => ⟨S6x64x192, .f32⟩
  | .hbm, ⟨69, _⟩ => ⟨S1x1x192, .f32⟩
  | .hbm, ⟨70, _⟩ => ⟨S6x64x192, .f32⟩
  | .hbm, ⟨71, _⟩ => ⟨S6x64x192, .f32⟩
  | .hbm, ⟨72, _⟩ => ⟨S6x64x192, .f32⟩
  | .hbm, ⟨73, _⟩ => ⟨S_, .f32⟩
  | .hbm, ⟨74, _⟩ => ⟨S6x64, .f32⟩
  | .hbm, ⟨75, _⟩ => ⟨S6x64x1, .f32⟩
  | .hbm, ⟨76, _⟩ => ⟨S_, .f32⟩
  | .hbm, ⟨77, _⟩ => ⟨S6x64x1, .f32⟩
  | .hbm, ⟨78, _⟩ => ⟨S6x64x1, .f32⟩
  | .hbm, ⟨79, _⟩ => ⟨S6x64x192, .f32⟩
  | .hbm, ⟨80, _⟩ => ⟨S6x64x192, .f32⟩
  | .hbm, ⟨81, _⟩ => ⟨S6x64x192, .f32⟩
  | .hbm, ⟨82, _⟩ => ⟨S_, .f32⟩
  | .hbm, ⟨83, _⟩ => ⟨S6x64, .f32⟩
  | .hbm, ⟨84, _⟩ => ⟨S6x64x1, .f32⟩
  | .hbm, ⟨85, _⟩ => ⟨S_, .f32⟩
  | .hbm, ⟨86, _⟩ => ⟨S6x64x1, .f32⟩
  | .hbm, ⟨87, _⟩ => ⟨S6x64x1, .f32⟩
  | .hbm, ⟨88, _⟩ => ⟨S6x64x192, .f32⟩
  | .hbm, ⟨89, _⟩ => ⟨S6x64x192, .f32⟩
  | .hbm, ⟨90, _⟩ => ⟨S_, .f32⟩
  | .hbm, ⟨91, _⟩ => ⟨S6x64x1, .f32⟩
  | .hbm, ⟨92, _⟩ => ⟨S6x64x1, .f32⟩
  | .hbm, ⟨93, _⟩ => ⟨S6x64x1, .f32⟩
  | .hbm, ⟨94, _⟩ => ⟨S6x64x192, .f32⟩
  | .hbm, ⟨95, _⟩ => ⟨S6x64x192, .f32⟩
  | .hbm, ⟨96, _⟩ => ⟨S1x1x192, .f32⟩
  | .hbm, ⟨97, _⟩ => ⟨S6x64x192, .f32⟩
  | .hbm, ⟨98, _⟩ => ⟨S6x64x192, .f32⟩
  | .hbm, ⟨99, _⟩ => ⟨S1x1x192, .f32⟩
  | .hbm, ⟨100, _⟩ => ⟨S6x64x192, .f32⟩
  | .hbm, ⟨101, _⟩ => ⟨S6x64x192, .f32⟩
  | .hbm, ⟨102, _⟩ => ⟨S64x4x6x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  shapeCasts_S64x256x56x56_S64x256x3136 : S64x256x56x56.ShapeCasts S64x256x3136
  bcast_S6_S6x1x1_0 : S6.BroadcastsInDim S6x1x1 (![0] : Fin 1 → Fin S6x1x1.rank)
  bcast_S6x1x1_S6x64x256_0_1_2 : S6x1x1.BroadcastsInDim S6x64x256 (![0, 1, 2] : Fin 3 → Fin S6x64x256.rank)
  bcast_S256_S1x1x256_2 : S256.BroadcastsInDim S1x1x256 (![2] : Fin 1 → Fin S1x1x256.rank)
  bcast_S1x1x256_S6x64x256_0_1_2 : S1x1x256.BroadcastsInDim S6x64x256 (![0, 1, 2] : Fin 3 → Fin S6x64x256.rank)
  shapeCasts_S6x64x256_S6x64x4x64 : S6x64x256.ShapeCasts S6x64x4x64
  transposes_S6x64x4x64_S64x4x6x64_1_2_0_3 : S6x64x4x64.Transposes [1, 2, 0, 3] S64x4x6x64
  shapeCasts_S64x256x3136_S64x4x64x3136 : S64x256x3136.ShapeCasts S64x4x64x3136
  bcast_S_S64x4x6x3136 : S_.BroadcastsInDim S64x4x6x3136 (![] : Fin 0 → Fin S64x4x6x3136.rank)
  reducesTo_S64x4x6x3136_S64x4x6_d3 : S64x4x6x3136.ReducesTo [3] S64x4x6
  h_S_ : 0 < S_.numel
  bcast_S_S64x4x6 : S_.BroadcastsInDim S64x4x6 (![] : Fin 0 → Fin S64x4x6.rank)
  bcast_S64x4x6_S64x4x6x1_0_1_2 : S64x4x6.BroadcastsInDim S64x4x6x1 (![0, 1, 2] : Fin 3 → Fin S64x4x6x1.rank)
  bcast_S64x4x6x1_S64x4x6x3136_0_1_2_3 : S64x4x6x1.BroadcastsInDim S64x4x6x3136 (![0, 1, 2, 3] : Fin 4 → Fin S64x4x6x3136.rank)
  transposes_S64x4x6x64_S6x64x4x64_2_0_1_3 : S64x4x6x64.Transposes [2, 0, 1, 3] S6x64x4x64
  shapeCasts_S6x64x4x64_S6x64x256 : S6x64x4x64.ShapeCasts S6x64x256
  bcast_S_S6x64x256 : S_.BroadcastsInDim S6x64x256 (![] : Fin 0 → Fin S6x64x256.rank)
  bcast_S192_S1x1x192_2 : S192.BroadcastsInDim S1x1x192 (![2] : Fin 1 → Fin S1x1x192.rank)
  bcast_S1x1x192_S6x64x192_0_1_2 : S1x1x192.BroadcastsInDim S6x64x192 (![0, 1, 2] : Fin 3 → Fin S6x64x192.rank)
  reducesTo_S6x64x192_S6x64_d2 : S6x64x192.ReducesTo [2] S6x64
  bcast_S6x64_S6x64x1_0_1 : S6x64.BroadcastsInDim S6x64x1 (![0, 1] : Fin 2 → Fin S6x64x1.rank)
  bcast_S_S6x64x1 : S_.BroadcastsInDim S6x64x1 (![] : Fin 0 → Fin S6x64x1.rank)
  bcast_S6x64x1_S6x64x192_0_1_2 : S6x64x1.BroadcastsInDim S6x64x192 (![0, 1, 2] : Fin 3 → Fin S6x64x192.rank)
  shapeCasts_S64x4x6x3136_S64x4x6x56x56 : S64x4x6x3136.ShapeCasts S64x4x6x56x56
  dot_S6x3136_S64x256x3136_S6x64x256_1_2_0_01_n_n_wf : DotDims.WF S6x3136 S64x256x3136 S6x64x256 [1] [2] [0] [0, 1] [] []
  dot_S6x64x192_S256x192_S6x64x256_2_1_01_0_n_n_wf : DotDims.WF S6x64x192 S256x192 S6x64x256 [2] [1] [0, 1] [0] [] []
  dot_S64x4x6x64_S64x4x64x3136_S64x4x6x3136_3_2_2_3_01_01_wf : DotDims.WF S64x4x6x64 S64x4x64x3136 S64x4x6x3136 [3] [2] [2] [3] [0, 1] [0, 1]
  dot_S64x4x6x3136_S64x4x64x3136_S64x4x6x64_3_3_2_2_01_01_wf : DotDims.WF S64x4x6x3136 S64x4x64x3136 S64x4x6x64 [3] [3] [2] [2] [0, 1] [0, 1]
  dot_S6x64x256_S192x256_S6x64x192_2_1_01_0_n_n_wf : DotDims.WF S6x64x256 S192x256 S6x64x192 [2] [1] [0, 1] [0] [] []

variable [Facts₀]

def dot_S6x3136_S64x256x3136_S6x64x256_1_2_0_01_n_n : DotDims S6x3136 S64x256x3136 S6x64x256 where
  lhsContracting := [1]
  rhsContracting := [2]
  lhsNonContracting := [0]
  rhsNonContracting := [0, 1]
  lhsBatch := []
  rhsBatch := []
  wf := dot_S6x3136_S64x256x3136_S6x64x256_1_2_0_01_n_n_wf
def dot_S6x64x192_S256x192_S6x64x256_2_1_01_0_n_n : DotDims S6x64x192 S256x192 S6x64x256 where
  lhsContracting := [2]
  rhsContracting := [1]
  lhsNonContracting := [0, 1]
  rhsNonContracting := [0]
  lhsBatch := []
  rhsBatch := []
  wf := dot_S6x64x192_S256x192_S6x64x256_2_1_01_0_n_n_wf
def dot_S64x4x6x64_S64x4x64x3136_S64x4x6x3136_3_2_2_3_01_01 : DotDims S64x4x6x64 S64x4x64x3136 S64x4x6x3136 where
  lhsContracting := [3]
  rhsContracting := [2]
  lhsNonContracting := [2]
  rhsNonContracting := [3]
  lhsBatch := [0, 1]
  rhsBatch := [0, 1]
  wf := dot_S64x4x6x64_S64x4x64x3136_S64x4x6x3136_3_2_2_3_01_01_wf
def dot_S64x4x6x3136_S64x4x64x3136_S64x4x6x64_3_3_2_2_01_01 : DotDims S64x4x6x3136 S64x4x64x3136 S64x4x6x64 where
  lhsContracting := [3]
  rhsContracting := [3]
  lhsNonContracting := [2]
  rhsNonContracting := [2]
  lhsBatch := [0, 1]
  rhsBatch := [0, 1]
  wf := dot_S64x4x6x3136_S64x4x64x3136_S64x4x6x64_3_3_2_2_01_01_wf
def dot_S6x64x256_S192x256_S6x64x192_2_1_01_0_n_n : DotDims S6x64x256 S192x256 S6x64x192 where
  lhsContracting := [2]
  rhsContracting := [1]
  lhsNonContracting := [0, 1]
  rhsNonContracting := [0]
  lhsBatch := []
  rhsBatch := []
  wf := dot_S6x64x256_S192x256_S6x64x192_2_1_01_0_n_n_wf

class Facts : Prop extends Facts₀ where

variable [Facts]
-- ==== Proof.Spec.lean ====
/-
  Six tokens attending over the 56 × 56 pixels of a 256-channel image, as functions of coordinates over the extended
  reals, with exact operations.

  For ONE image, with channels × pixels `P` and token rows `T`:
  • a linear branch over the pixels, `lin t c = Σ_n Wm t n · P c n + bm t`;
  • queries `query t c = Σ_d T t d · Wq c d + bq c`, split into 4 heads of 64 channels (channel `64 h + d` is lane `d`
    of head `h`);
  • scores `score h t n = (Σ_d query t (64 h + d) · P (64 h + d) n) · 1/8`, and a softmax of them along the pixels:
    the largest score `top`, `expo = exp (score − top)`, their sum `mass`, `weight = expo / mass`;
  • the context `context h t d = Σ_n weight h t n · P (64 h + d) n` (the pixels serve as keys and as values);
  • a gate `min 6 (max 0 (Σ_d T t d · Wa c d + ba c + 3)) · 1/3`;
  • `mixed = (lin + context) · gate`, projected back to the tokens' width, added to the tokens (`resid`), and
    normalised along the width: `(resid − mean) · rsqrt (var + ε) · g + be`.
  The whole arrays are these at each image of the batch: image `b`'s pixels are `feat (b, c, n / 56, n % 56)` and its
  token rows `tok (t, b, ·)`.

  The one law used between two spellings of the gate: dividing by 6 and then doubling is multiplying by 1/3, for EVERY
  extended real (multiplication there is associative, and a division by a nonzero real is a product with its
  reciprocal), so no finiteness is asked of anything.
-/
import Idealize.ShloMosaic.PureOps.Ideal.Laws
import Idealize.ShloMosaic.Lib.ValueIdx

open scoped BigOperators

noncomputable section

namespace Cert.Spec

open Idealize.ShloMosaic Idealize.ShloMosaic.ValueIdx

/-- Lane `d` of head `h` is channel `64 h + d`. -/
def chan (h : Fin 4) (d : Fin 64) : Fin 256 := ⟨h.val * 64 + d.val, by have := h.isLt; have := d.isLt; omega⟩
/-- The head a channel belongs to, -/
def headOf (c : Fin 256) : Fin 4 := ⟨c.val / 64, by have := c.isLt; omega⟩
/-- and its lane there. -/
def laneOf (c : Fin 256) : Fin 64 := ⟨c.val % 64, Nat.mod_lt _ (by norm_num)⟩

theorem chan_head_lane (c : Fin 256) : chan (headOf c) (laneOf c) = c :=
  Fin.ext (by show c.val / 64 * 64 + c.val % 64 = c.val; omega)

/-- Pixel `n` of a 56 × 56 image is at row `n / 56`, -/
def pixRow (n : Fin 3136) : Fin 56 := ⟨n.val / 56, by have := n.isLt; omega⟩
/-- column `n % 56`; -/
def pixCol (n : Fin 3136) : Fin 56 := ⟨n.val % 56, Nat.mod_lt _ (by norm_num)⟩
/-- and the pixel at row `r`, column `s` is number `56 r + s`. -/
def pixAt (r s : Fin 56) : Fin 3136 := ⟨r.val * 56 + s.val, by have := r.isLt; have := s.isLt; omega⟩

/-! ## One image -/

section image

variable (P : Fin 256 → Fin 3136 → EReal) (T : Fin 6 → Fin 192 → EReal)
  (Wm : Fin 6 → Fin 3136 → EReal) (bm : Fin 6 → EReal)
  (Wq : Fin 256 → Fin 192 → EReal) (bq : Fin 256 → EReal)
  (Wa : Fin 256 → Fin 192 → EReal) (ba : Fin 256 → EReal)
  (Wp : Fin 192 → Fin 256 → EReal) (bp : Fin 192 → EReal)
  (g be : Fin 192 → EReal)

/-- The linear branch: each channel's pixels weighted per token. -/
def lin (t : Fin 6) (c : Fin 256) : EReal := (∑ n : Fin 3136, Wm t n * P c n) + bm t

/-- The tokens' queries, one per channel. -/
def query (t : Fin 6) (c : Fin 256) : EReal := (∑ d : Fin 192, T t d * Wq c d) + bq c

/-- Head `h`'s score of token `t` against pixel `n`, scaled by 1/8 (the word of 0.125). -/
def score (h : Fin 4) (t : Fin 6) (n : Fin 3136) : EReal :=
  (∑ d : Fin 64, query T Wq bq t (chan h d) * P (chan h d) n) * Ideal.ofBits .f32 0x3E000000#32

/-- The largest score along the pixels, taken from −∞ (the word 0xFF800000) and once more against −∞. -/
def top (h : Fin 4) (t : Fin 6) : EReal :=
  max (Ideal.ofBits .f32 0xFF800000#32)
    ((Finset.univ : Finset (Fin 3136)).fold max (Ideal.ofBits .f32 0xFF800000#32) (fun n => score P T Wq bq h t n))

def expo (h : Fin 4) (t : Fin 6) (n : Fin 3136) : EReal := Ideal.exp (score P T Wq bq h t n - top P T Wq bq h t)

def mass (h : Fin 4) (t : Fin 6) : EReal := ∑ n : Fin 3136, expo P T Wq bq h t n

/-- The softmax weight of pixel `n`. -/
def weight (h : Fin 4) (t : Fin 6) (n : Fin 3136) : EReal := Ideal.div (expo P T Wq bq h t n) (mass P T Wq bq h t)

/-- The attended pixels, per head and lane. -/
def context (h : Fin 4) (t : Fin 6) (d : Fin 64) : EReal := ∑ n : Fin 3136, weight P T Wq bq h t n * P (chan h d) n

/-- The gate, clamped to [0, 6] and scaled by a third. -/
def gate (t : Fin 6) (c : Fin 256) : EReal :=
  min (Ideal.ofBits .f32 0x40C00000#32)
      (max (Ideal.ofBits .f32 0x00000000#32) (((∑ d : Fin 192, T t d * Wa c d) + ba c) + Ideal.ofBits .f32 0x40400000#32))
    * ((1 / 3 : ℝ) : EReal)

def mixed (t : Fin 6) (c : Fin 256) : EReal :=
  (lin P Wm bm t c + context P T Wq bq (headOf c) t (laneOf c)) * gate T Wa ba t c

def proj (t : Fin 6) (d : Fin 192) : EReal := (∑ c : Fin 256, mixed P T Wm bm Wq bq Wa ba t c * Wp d c) + bp d

def resid (t : Fin 6) (d : Fin 192) : EReal := T t d + proj P T Wm bm Wq bq Wa ba Wp bp t d

def mean (t : Fin 6) : EReal :=
  Ideal.div (∑ d : Fin 192, resid P T Wm bm Wq bq Wa ba Wp bp t d) (Ideal.ofBits .f32 0x43400000#32)

def var (t : Fin 6) : EReal :=
  Ideal.div (∑ d : Fin 192, (resid P T Wm bm Wq bq Wa ba Wp bp t d - mean P T Wm bm Wq bq Wa ba Wp bp t)
      * (resid P T Wm bm Wq bq Wa ba Wp bp t d - mean P T Wm bm Wq bq Wa ba Wp bp t)) (Ideal.ofBits .f32 0x43400000#32)

/-- The normalised tokens. -/
def normed (t : Fin 6) (d : Fin 192) : EReal :=
  (resid P T Wm bm Wq bq Wa ba Wp bp t d - mean P T Wm bm Wq bq Wa ba Wp bp t)
      * Ideal.rsqrt (var P T Wm bm Wq bq Wa ba Wp bp t + Ideal.ofBits .f32 0x3727C5AC#32) * g d + be d

end image

/-! ## The batch -/

section batch

variable (feat : (⟨4, ![64, 256, 56, 56]⟩ : Shape).Idx → EReal) (tok : (⟨3, ![6, 64, 192]⟩ : Shape).Idx → EReal)
  (mw : (⟨2, ![6, 3136]⟩ : Shape).Idx → EReal) (mb : (⟨1, ![6]⟩ : Shape).Idx → EReal)
  (qw : (⟨2, ![256, 192]⟩ : Shape).Idx → EReal) (qb : (⟨1, ![256]⟩ : Shape).Idx → EReal)
  (aw : (⟨2, ![256, 192]⟩ : Shape).Idx → EReal) (ab : (⟨1, ![256]⟩ : Shape).Idx → EReal)
  (pw : (⟨2, ![192, 256]⟩ : Shape).Idx → EReal) (pb : (⟨1, ![192]⟩ : Shape).Idx → EReal)
  (lg lb : (⟨1, ![192]⟩ : Shape).Idx → EReal)

/-- Image `b`'s channels × pixels. -/
def pixels (b : Fin 64) : Fin 256 → Fin 3136 → EReal := fun c n => feat (ix4 b c (pixRow n) (pixCol n))
/-- Image `b`'s token rows. -/
def rows (b : Fin 64) : Fin 6 → Fin 192 → EReal := fun t d => tok (ix3 t b d)

/-- The normalised tokens of image `b`. -/
def tokenAt (b : Fin 64) (t : Fin 6) (d : Fin 192) : EReal :=
  normed (pixels feat b) (rows tok b) (fun t n => mw (ix2 t n)) (fun t => mb (ix1 t)) (fun c d => qw (ix2 c d)) (fun c => qb (ix1 c))
    (fun c d => aw (ix2 c d)) (fun c => ab (ix1 c)) (fun d c => pw (ix2 d c)) (fun d => pb (ix1 d)) (fun d => lg (ix1 d))
    (fun d => lb (ix1 d)) t d

/-- The scores of image `b`. -/
def scoreAt (b : Fin 64) (h : Fin 4) (t : Fin 6) (n : Fin 3136) : EReal :=
  score (pixels feat b) (rows tok b) (fun c d => qw (ix2 c d)) (fun c => qb (ix1 c)) h t n

/-- The first result: tokens × batch × width. -/
def tokensOut : (⟨3, ![6, 64, 192]⟩ : Shape).Idx → EReal := fun i =>
  tokenAt feat tok mw mb qw qb aw ab pw pb lg lb (i 1) (i 0) (i 2)

/-- The second result: batch × heads × tokens × rows × columns of pixels. -/
def scoresOut : (⟨5, ![64, 4, 6, 56, 56]⟩ : Shape).Idx → EReal := fun i =>
  scoreAt feat tok qw qb (i 0) (i 1) (i 2) (pixAt (i 3) (i 4))

/-- The same two, as the arrays a batch-major computation leaves them in: batch × tokens × width, -/
def tokensBatchMajor : (⟨3, ![64, 6, 192]⟩ : Shape).Idx → EReal := fun i =>
  tokenAt feat tok mw mb qw qb aw ab pw pb lg lb (i 0) (i 1) (i 2)

/-- and batch × heads × tokens × pixels. -/
def scoresFlat : (⟨4, ![64, 4, 6, 3136]⟩ : Shape).Idx → EReal := fun i =>
  scoreAt feat tok qw qb (i 0) (i 1) (i 2) (i 3)

end batch

/-! ## Two literal words, and the gate's law -/

theorem ofBits_six : Ideal.ofBits .f32 0x40C00000#32 = ((6 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A sixth, doubled, is a third: of every extended real. -/
theorem sixth_doubled (c : EReal) :
    Ideal.div c (Ideal.ofBits .f32 0x40C00000#32) * Ideal.ofBits .f32 0x40000000#32 = c * ((1 / 3 : ℝ) : EReal) := by
  rw [ofBits_six, ofBits_two, Ideal.div_coe (by norm_num : (6 : ℝ) ≠ 0), mul_assoc, ← EReal.coe_mul]
  norm_num

end Cert.Spec

end
-- ==== Proof.RefScores.lean ====
/-
  The reference's scores are the specification's: the pixels of image `b` read through the two reshapes, the queries
  through the reshape into heads and the transpose, the contraction over a head's 64 lanes, and the scale by 1/8.
-/
import proofs.«143514_j120259084729_1_alg».proof.Proof.Gen.ReferenceIdeal.Read
import proofs.«143514_j120259084729_1_alg».proof.Proof.Spec

open scoped BigOperators

noncomputable section

namespace Cert.RefValue

open Cert.ReferenceIdeal Cert.ReferenceIdeal.Read Idealize.ShloMosaic Idealize.ShloMosaic.ValueIdx

/-- The flattened image: entry `(b, c, n)` is channel `c` of image `b` at pixel `n`. -/
theorem pixels_flat (x0 : (⟨S64x256x56x56, .f32⟩ : BufTy).Contents (Elt Ideal)) (b : Fin 64) (c : Fin 256) (n : Fin 3136) :
    val_main_v0 (F := Ideal) x0 (ix3 b c n) = Cert.Spec.pixels x0 b c n := by
  rw [val_main_v0_apply]
  unfold Cert.Spec.pixels
  have e : idx_main_v0 (ix3 b c n) = ix4 b c (Cert.Spec.pixRow n) (Cert.Spec.pixCol n) := funext fun a => Fin.ext (by
    have hb := b.isLt; have hc := c.isLt; have hn := n.isLt
    match a with
    | ⟨0, _⟩ => show ((b.val * 256 + c.val) * 3136 + n.val) / 802816 = b.val; omega
    | ⟨1, _⟩ => show ((b.val * 256 + c.val) * 3136 + n.val) / 3136 % 256 = c.val; omega
    | ⟨2, _⟩ => show ((b.val * 256 + c.val) * 3136 + n.val) / 56 % 56 = n.val / 56; omega
    | ⟨3, _⟩ => show ((b.val * 256 + c.val) * 3136 + n.val) % 56 = n.val % 56; omega)
  rw [e]

/-- The image split into heads: entry `(b, h, d, n)` is channel `64 h + d`. -/
theorem pixels_heads (x0 : (⟨S64x256x56x56, .f32⟩ : BufTy).Contents (Elt Ideal)) (b : Fin 64) (h : Fin 4) (d : Fin 64) (n : Fin 3136) :
    val_main_v11 (F := Ideal) x0 (ix4 b h d n) = Cert.Spec.pixels x0 b (Cert.Spec.chan h d) n := by
  rw [val_main_v11_apply]
  have e : idx_main_v11 (ix4 b h d n) = ix3 b (Cert.Spec.chan h d) n := funext fun a => Fin.ext (by
    have hb := b.isLt; have hh := h.isLt; have hd := d.isLt; have hn := n.isLt
    match a with
    | ⟨0, _⟩ => show (((b.val * 4 + h.val) * 64 + d.val) * 3136 + n.val) / 802816 = b.val; omega
    | ⟨1, _⟩ => show (((b.val * 4 + h.val) * 64 + d.val) * 3136 + n.val) / 3136 % 256 = h.val * 64 + d.val; omega
    | ⟨2, _⟩ => show (((b.val * 4 + h.val) * 64 + d.val) * 3136 + n.val) % 3136 = n.val; omega)
  rw [e, pixels_flat]

/-- The queries, token-major. -/
theorem query_flat (x1 : (⟨S6x64x192, .f32⟩ : BufTy).Contents (Elt Ideal)) (x4 : (⟨S256x192, .f32⟩ : BufTy).Contents (Elt Ideal)) (x5 : (⟨S256, .f32⟩ : BufTy).Contents (Elt Ideal)) (t : Fin 6) (b : Fin 64) (c : Fin 256) :
    val_main_v8 (F := Ideal) x1 x4 x5 (ix3 t b c)
      = Cert.Spec.query (Cert.Spec.rows x1 b) (fun c d => x4 (ix2 c d)) (fun c => x5 (ix1 c)) t c := by
  rw [val_main_v8_apply, val_main_v5_apply, val_main_v7_apply, val_main_v6_apply]
  unfold Cert.Spec.query Cert.Spec.rows
  have el : ∀ k : Fin 192, lidx_main_v5 (ix3 t b c) k = ix3 t b k := fun k => funext fun a => by
    match a with | ⟨0, _⟩ => rfl | ⟨1, _⟩ => rfl | ⟨2, _⟩ => rfl
  have er : ∀ k : Fin 192, ridx_main_v5 (ix3 t b c) k = ix2 c k := fun k => funext fun a => by
    match a with | ⟨0, _⟩ => rfl | ⟨1, _⟩ => rfl
  have eb : idx_main_v6 (idx_main_v7 (ix3 t b c)) = ix1 c := funext fun a => by
    match a with | ⟨0, _⟩ => rfl
  simp only [el, er, eb, Ideal.addf_def]

/-- The queries split into heads and moved batch-major: entry `(b, h, t, d)` is channel `64 h + d` of token `t`. -/
theorem query_heads (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (d : Fin 64) :
    val_main_v10 (F := Ideal) x1 x4 x5 (ix4 b h t d)
      = Cert.Spec.query (Cert.Spec.rows x1 b) (fun c d => x4 (ix2 c d)) (fun c => x5 (ix1 c)) t (Cert.Spec.chan h d) := by
  rw [val_main_v10_apply, val_main_v9_apply]
  have e : idx_main_v9 (idx_main_v10 (ix4 b h t d)) = ix3 t b (Cert.Spec.chan h d) := funext fun a => Fin.ext (by
    have hb := b.isLt; have hh := h.isLt; have hd := d.isLt; have ht := t.isLt
    match a with
    | ⟨0, _⟩ => show (((t.val * 64 + b.val) * 4 + h.val) * 64 + d.val) / 16384 = t.val; omega
    | ⟨1, _⟩ => show (((t.val * 64 + b.val) * 4 + h.val) * 64 + d.val) / 256 % 64 = b.val; omega
    | ⟨2, _⟩ => show (((t.val * 64 + b.val) * 4 + h.val) * 64 + d.val) % 256 = h.val * 64 + d.val; omega)
  rw [e, query_flat]

/-- The scaled scores, pixels flat. -/
theorem score_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (n : Fin 3136) :
    val_main_v14 (F := Ideal) x0 x1 x4 x5 (ix4 b h t n) = Cert.Spec.scoreAt x0 x1 x4 x5 b h t n := by
  rw [val_main_v14_apply, val_main_v12_apply, val_main_v13_apply, val_main_cst_apply]
  unfold Cert.Spec.scoreAt Cert.Spec.score
  have el : ∀ k : Fin 64, lidx_main_v12 (ix4 b h t n) k = ix4 b h t k := fun k => funext fun a => by
    match a with | ⟨0, _⟩ => rfl | ⟨1, _⟩ => rfl | ⟨2, _⟩ => rfl | ⟨3, _⟩ => rfl
  have er : ∀ k : Fin 64, ridx_main_v12 (ix4 b h t n) k = ix4 b h k n := fun k => funext fun a => by
    match a with | ⟨0, _⟩ => rfl | ⟨1, _⟩ => rfl | ⟨2, _⟩ => rfl | ⟨3, _⟩ => rfl
  simp only [el, er, query_heads, pixels_heads, Ideal.mulf_def, Ideal.ofBits_def]

/-- The scores with the pixels unflattened: row `r`, column `s` is pixel `56 r + s`. -/
theorem score_unflat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (r s : Fin 56) :
    val_main_v71 (F := Ideal) x0 x1 x4 x5 (ix5 b h t r s) = Cert.Spec.scoreAt x0 x1 x4 x5 b h t (Cert.Spec.pixAt r s) := by
  rw [val_main_v71_apply]
  have e : idx_main_v71 (ix5 b h t r s) = ix4 b h t (Cert.Spec.pixAt r s) := funext fun a => Fin.ext (by
    have hb := b.isLt; have hh := h.isLt; have ht := t.isLt; have hr := r.isLt; have hs := s.isLt
    match a with
    | ⟨0, _⟩ => show ((((b.val * 4 + h.val) * 6 + t.val) * 56 + r.val) * 56 + s.val) / 75264 = b.val; omega
    | ⟨1, _⟩ => show ((((b.val * 4 + h.val) * 6 + t.val) * 56 + r.val) * 56 + s.val) / 18816 % 4 = h.val; omega
    | ⟨2, _⟩ => show ((((b.val * 4 + h.val) * 6 + t.val) * 56 + r.val) * 56 + s.val) / 3136 % 6 = t.val; omega
    | ⟨3, _⟩ => show ((((b.val * 4 + h.val) * 6 + t.val) * 56 + r.val) * 56 + s.val) % 3136 = r.val * 56 + s.val; omega)
  rw [e, score_flat]

/-- The second result. -/
theorem ref_scores (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) :
    Cert.ReferenceIdeal.Read.val_main_v71 (F := Ideal) x0 x1 x4 x5 = Cert.Spec.scoresOut x0 x1 x4 x5 := by
  funext i
  obtain ⟨b, h, t, r, s, rfl⟩ : ∃ (b : Fin 64) (h : Fin 4) (t : Fin 6) (r s : Fin 56), i = ix5 b h t r s :=
    ⟨i 0, i 1, i 2, i 3, i 4, eq_ix5 i⟩
  exact score_unflat x0 x1 x4 x5 b h t r s

end Cert.RefValue

end
-- ==== Proof.RefSoftmax.lean ====
/-
  The reference's softmax of the scores along the pixels, and the attended pixels: the largest score (a fold of `max`
  from −∞ over the 3136 pixels, then once more against −∞), the exponentials of the differences, their sum, the
  quotients, and the contraction of the weights with the pixels of each lane.
-/
import proofs.«143514_j120259084729_1_alg».proof.Proof.RefScores

open scoped BigOperators

noncomputable section

namespace Cert.RefValue

open Cert.ReferenceIdeal Cert.ReferenceIdeal.Gen Cert.ReferenceIdeal.Read Idealize.ShloMosaic Idealize.ShloMosaic.ValueIdx

/-- Index `(b, h, t)` of the reduced array with pixel `k` put back is `(b, h, t, k)`. -/
theorem lift_pixel (hR : S64x4x6x3136.Reduces [3] S64x4x6) (b : Fin 64) (h : Fin 4) (t : Fin 6)
    (k : Fin (S64x4x6x3136.size 3)) : hR.lift (ix3 b h t) k = ix4 b h t (⟨k.val, k.isLt⟩ : Fin 3136) := by
  funext c; apply Fin.ext
  fin_cases c <;> rfl

/-- The largest score along the pixels. -/
theorem top_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) :
    val_main_v17 (F := Ideal) x0 x1 x4 x5 (ix3 b h t) = Cert.Spec.top (Cert.Spec.pixels x0 b) (Cert.Spec.rows x1 b) (fun c d => x4 (ix2 c d)) (fun c => x5 (ix1 c)) h t := by
  rw [val_main_v17_apply, val_main_v16_apply, val_main_cst_1_apply]
  unfold val_main_v15
  have hR : S64x4x6x3136.Reduces [3] S64x4x6 := by decide
  rw [Host.reduce_eq_fold_single FloatOps.maximumf _ _ reducesTo_S64x4x6x3136_S64x4x6_d3 hR h_S_]
  unfold Cert.Spec.top
  have hf : (val_main_v14 (F := Ideal) x0 x1 x4 x5 ∘ hR.lift (ix3 b h t))
      = fun n : Fin 3136 => Cert.Spec.score (Cert.Spec.pixels x0 b) (Cert.Spec.rows x1 b) (fun c d => x4 (ix2 c d)) (fun c => x5 (ix1 c)) h t n :=
    funext fun k => (congrArg (val_main_v14 (F := Ideal) x0 x1 x4 x5) (lift_pixel hR b h t k)).trans
      (score_flat x0 x1 x4 x5 b h t ⟨k.val, k.isLt⟩)
  exact congrArg (fun f => max (Ideal.ofBits .f32 0xFF800000#32) (Finset.fold max (Ideal.ofBits .f32 0xFF800000#32) f (Finset.univ : Finset (Fin 3136)))) hf

/-- The exponential of a score less the largest. -/
theorem expo_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (n : Fin 3136) :
    val_main_v21 (F := Ideal) x0 x1 x4 x5 (ix4 b h t n) = Cert.Spec.expo (Cert.Spec.pixels x0 b) (Cert.Spec.rows x1 b) (fun c d => x4 (ix2 c d)) (fun c => x5 (ix1 c)) h t n := by
  rw [val_main_v21_apply, val_main_v20_apply, val_main_v19_apply, val_main_v18_apply]
  have e : idx_main_v18 (idx_main_v19 (ix4 b h t n)) = ix3 b h t := funext fun a => by
    match a with | ⟨0, _⟩ => rfl | ⟨1, _⟩ => rfl | ⟨2, _⟩ => rfl
  rw [e, top_flat, score_flat]
  unfold Cert.Spec.expo Cert.Spec.scoreAt
  simp only [Ideal.subf_def, Ideal.hostUnary_exp_def]

/-- The sum of the exponentials. -/
theorem mass_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) :
    val_main_v22 (F := Ideal) x0 x1 x4 x5 (ix3 b h t) = Cert.Spec.mass (Cert.Spec.pixels x0 b) (Cert.Spec.rows x1 b) (fun c d => x4 (ix2 c d)) (fun c => x5 (ix1 c)) h t := by
  rw [val_main_v22_apply, val_main_cst_2_apply]
  unfold Cert.Spec.mass
  have e : ∀ k : Fin 3136, idx_main_v22 (ix3 b h t) k = ix4 b h t k := fun k => funext fun a => by
    match a with | ⟨0, _⟩ => rfl | ⟨1, _⟩ => rfl | ⟨2, _⟩ => rfl | ⟨3, _⟩ => rfl
  simp only [e, expo_flat, Ideal.ofBits_def, Ideal.ofBits_zero_f32, zero_add]

/-- The softmax weights. -/
theorem weight_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (n : Fin 3136) :
    val_main_v25 (F := Ideal) x0 x1 x4 x5 (ix4 b h t n) = Cert.Spec.weight (Cert.Spec.pixels x0 b) (Cert.Spec.rows x1 b) (fun c d => x4 (ix2 c d)) (fun c => x5 (ix1 c)) h t n := by
  rw [val_main_v25_apply, val_main_v24_apply, val_main_v23_apply]
  have e : idx_main_v23 (idx_main_v24 (ix4 b h t n)) = ix3 b h t := funext fun a => by
    match a with | ⟨0, _⟩ => rfl | ⟨1, _⟩ => rfl | ⟨2, _⟩ => rfl
  rw [e, mass_flat, expo_flat]
  unfold Cert.Spec.weight
  simp only [Ideal.hostDivf_def]

/-- The attended pixels of head `h`, lane `d`. -/
theorem context_flat (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (b : Fin 64) (h : Fin 4) (t : Fin 6) (d : Fin 64) :
    val_main_v26 (F := Ideal) x0 x1 x4 x5 (ix4 b h t d) = Cert.Spec.context (Cert.Spec.pixels x0 b) (Cert.Spec.rows x1 b) (fun c d => x4 (ix2 c d)) (fun c => x5 (ix1 c)) h t d := by
  rw [val_main_v26_apply]
  unfold Cert.Spec.context
  have el : ∀ k : Fin 3136, lidx_main_v26 (ix4 b h t d) k = ix4 b h t k := fun k => funext fun a => by
    match a with | ⟨0, _⟩ => rfl | ⟨1, _⟩ => rfl | ⟨2, _⟩ => rfl | ⟨3, _⟩ => rfl
  have er : ∀ k : Fin 3136, ridx_main_v26 (ix4 b h t d) k = ix4 b h d k := fun k => funext fun a => by
    match a with | ⟨0, _⟩ => rfl | ⟨1, _⟩ => rfl | ⟨2, _⟩ => rfl | ⟨3, _⟩ => rfl
  simp only [el, er, weight_flat, pixels_heads]

end Cert.RefValue

end
-- ==== Proof.RefBranches.lean ====
/-
  The reference's two branches, its gate and their product: the linear branch over the pixels; its sum with the
  attended pixels brought back token-major (channel `c` is lane `c % 64` of head `c / 64`); the gate, whose clamp
  to [0, 6], division by 6 and doubling is the clamp times a third; and the gated sum.
-/
import proofs.«143514_j120259084729_1_alg».proof.Proof.RefSoftmax

open scoped BigOperators

noncomputable section

namespace Cert.RefValue

open Cert.ReferenceIdeal Cert.ReferenceIdeal.Gen Cert.ReferenceIdeal.Read Idealize.ShloMosaic Idealize.ShloMosaic.ValueIdx

/-- The linear branch. -/
theorem lin_flat (x0 : (⟨S64x256x56x56, .f32⟩ : BufTy).Contents (Elt Ideal)) (x2 : (⟨S6x3136, .f32⟩ : BufTy).Contents (Elt Ideal)) (x3 : (⟨S6, .f32⟩ : BufTy).Contents (Elt Ideal)) (t : Fin 6) (b : Fin 64) (c : Fin 256) :
    val_main_v4 (F := Ideal) x0 x2 x3 (ix3 t b c) = Cert.Spec.lin (Cert.Spec.pixels x0 b) (fun t n => x2 (ix2 t n)) (fun t => x3 (ix1 t)) t c := by
  rw [val_main_v4_apply, val_main_v1_apply, val_main_v3_apply, val_main_v2_apply]
  unfold Cert.Spec.lin
  have el : ∀ k : Fin 3136, lidx_main_v1 (ix3 t b c) k = ix2 t k := fun k => funext fun a => by
    match a with | ⟨0, _⟩ => rfl | ⟨1, _⟩ => rfl
  have er : ∀ k : Fin 3136, ridx_main_v1 (ix3 t b c) k = ix3 b c k := fun k => funext fun a => by
    match a with | ⟨0, _⟩ => rfl | ⟨1, _⟩ => rfl | ⟨2, _⟩ => rfl
  have eb : idx_main_v2 (idx_main_v3 (ix3 t b c)) = ix1 t := funext fun a => by
    match a with | ⟨0, _⟩ => rfl
  simp only [el, er, eb, pixels_flat, Ideal.addf_def]

/-- The attended pixels, token-major and with the heads' lanes side by side. -/
theorem context_tokens (x0 : (⟨S64x256x56x56, .f32⟩ : BufTy).Contents (Elt Ideal)) (x1 : (⟨S6x64x192, .f32⟩ : BufTy).Contents (Elt Ideal)) (x4 : (⟨S256x192, .f32⟩ : BufTy).Contents (Elt Ideal)) (x5 : (⟨S256, .f32⟩ : BufTy).Contents (Elt Ideal)) (t : Fin 6) (b : Fin 64) (c : Fin 256) :
    val_main_v28 (F := Ideal) x0 x1 x4 x5 (ix3 t b c)
      = Cert.Spec.context (Cert.Spec.pixels x0 b) (Cert.Spec.rows x1 b) (fun c d => x4 (ix2 c d)) (fun c => x5 (ix1 c)) (Cert.Spec.headOf c) t (Cert.Spec.laneOf c) := by
  rw [val_main_v28_apply, val_main_v27_apply]
  have e : idx_main_v27 (idx_main_v28 (ix3 t b c)) = ix4 b (Cert.Spec.headOf c) t (Cert.Spec.laneOf c) :=
    funext fun a => Fin.ext (by
      have ht := t.isLt; have hb := b.isLt; have hc := c.isLt
      match a with
      | ⟨0, _⟩ => show ((t.val * 64 + b.val) * 256 + c.val) / 256 % 64 = b.val; omega
      | ⟨1, _⟩ => show ((t.val * 64 + b.val) * 256 + c.val) / 64 % 4 = c.val / 64; omega
      | ⟨2, _⟩ => show ((t.val * 64 + b.val) * 256 + c.val) / 16384 = t.val; omega
      | ⟨3, _⟩ => show ((t.val * 64 + b.val) * 256 + c.val) % 64 = c.val % 64; omega)
  rw [e, context_flat]

/-- The two branches added. -/
theorem branches_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (t : Fin 6) (b : Fin 64) (c : Fin 256) :
    val_main_v29 (F := Ideal) x0 x1 x2 x3 x4 x5 (ix3 t b c)
      = Cert.Spec.lin (Cert.Spec.pixels x0 b) (fun t n => x2 (ix2 t n)) (fun t => x3 (ix1 t)) t c
        + Cert.Spec.context (Cert.Spec.pixels x0 b) (Cert.Spec.rows x1 b) (fun c d => x4 (ix2 c d)) (fun c => x5 (ix1 c)) (Cert.Spec.headOf c) t (Cert.Spec.laneOf c) := by
  rw [val_main_v29_apply, lin_flat, context_tokens]
  rfl

/-- The gate's argument: the tokens through the gate's weights, its bias, and 3. -/
theorem gate_arg (x1 : (⟨S6x64x192, .f32⟩ : BufTy).Contents (Elt Ideal)) (x6 : (⟨S256x192, .f32⟩ : BufTy).Contents (Elt Ideal)) (x7 : (⟨S256, .f32⟩ : BufTy).Contents (Elt Ideal)) (t : Fin 6) (b : Fin 64) (c : Fin 256) :
    val_main_v35 (F := Ideal) x1 x6 x7 (ix3 t b c)
      = ((∑ d : Fin 192, Cert.Spec.rows x1 b t d * x6 (ix2 c d)) + x7 (ix1 c)) + Ideal.ofBits .f32 0x40400000#32 := by
  rw [val_main_v35_apply, val_main_v34_apply, val_main_cst_3_apply, val_main_v33_apply, val_main_v30_apply,
    val_main_v32_apply, val_main_v31_apply]
  unfold Cert.Spec.rows
  have el : ∀ k : Fin 192, lidx_main_v30 (ix3 t b c) k = ix3 t b k := fun k => funext fun a => by
    match a with | ⟨0, _⟩ => rfl | ⟨1, _⟩ => rfl | ⟨2, _⟩ => rfl
  have er : ∀ k : Fin 192, ridx_main_v30 (ix3 t b c) k = ix2 c k := fun k => funext fun a => by
    match a with | ⟨0, _⟩ => rfl | ⟨1, _⟩ => rfl
  have eb : idx_main_v31 (idx_main_v32 (ix3 t b c)) = ix1 c := funext fun a => by
    match a with | ⟨0, _⟩ => rfl
  simp only [el, er, eb, Ideal.addf_def, Ideal.ofBits_def]

/-- The gate: the clamp of the argument to [0, 6], divided by 6 and doubled, is the clamp times a third. -/
theorem gate_flat (x1 : (⟨S6x64x192, .f32⟩ : BufTy).Contents (Elt Ideal)) (x6 : (⟨S256x192, .f32⟩ : BufTy).Contents (Elt Ideal)) (x7 : (⟨S256, .f32⟩ : BufTy).Contents (Elt Ideal)) (t : Fin 6) (b : Fin 64) (c : Fin 256) :
    val_main_v40 (F := Ideal) x1 x6 x7 (ix3 t b c) = Cert.Spec.gate (Cert.Spec.rows x1 b) (fun c d => x6 (ix2 c d)) (fun c => x7 (ix1 c)) t c := by
  rw [val_main_v40_apply, val_main_v39_apply, val_main_cst_7_apply, val_main_v38_apply, val_main_v37_apply,
    val_main_cst_6_apply, val_main_v36_apply, val_main_call0_v4_apply, val_main_call0_v3_apply, val_main_cst_5_apply,
    val_main_call0_v2_apply, val_main_call0_v1_apply, val_main_call0_v0_apply, val_main_cst_4_apply, gate_arg]
  unfold Cert.Spec.gate
  simp only [Ideal.mulf_def, Ideal.hostDivf_def, Ideal.minimumf_def, Ideal.maximumf_def, Ideal.ofBits_def]
  exact Cert.Spec.sixth_doubled _

/-- The gated sum of the branches. -/
theorem mixed_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (t : Fin 6) (b : Fin 64) (c : Fin 256) :
    val_main_v41 (F := Ideal) x0 x1 x2 x3 x4 x5 x6 x7 (ix3 t b c) = Cert.Spec.mixed (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) t c := by
  rw [val_main_v41_apply, branches_flat, gate_flat]
  rfl

end Cert.RefValue

end
-- ==== Proof.RefNorm.lean ====
/-
  The reference's projection back to the tokens' width, the residual, and the normalisation along the width: the mean
  and the variance (each a sum over the 192 entries of a row, from the word of zero, divided by the word of 192) and the
  normalised tokens, which are the first result.
-/
import proofs.«143514_j120259084729_1_alg».proof.Proof.RefBranches

open scoped BigOperators

noncomputable section

namespace Cert.RefValue

open Cert.ReferenceIdeal Cert.ReferenceIdeal.Gen Cert.ReferenceIdeal.Read Idealize.ShloMosaic Idealize.ShloMosaic.ValueIdx

/-- The projection of the gated sum. -/
theorem proj_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (t : Fin 6) (b : Fin 64) (d : Fin 192) :
    val_main_v45 (F := Ideal) x0 x1 x2 x3 x4 x5 x6 x7 x8 x9 (ix3 t b d) = Cert.Spec.proj (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t d := by
  rw [val_main_v45_apply, val_main_v42_apply, val_main_v44_apply, val_main_v43_apply]
  unfold Cert.Spec.proj
  have el : ∀ k : Fin 256, lidx_main_v42 (ix3 t b d) k = ix3 t b k := fun k => funext fun a => by
    match a with | ⟨0, _⟩ => rfl | ⟨1, _⟩ => rfl | ⟨2, _⟩ => rfl
  have er : ∀ k : Fin 256, ridx_main_v42 (ix3 t b d) k = ix2 d k := fun k => funext fun a => by
    match a with | ⟨0, _⟩ => rfl | ⟨1, _⟩ => rfl
  have eb : idx_main_v43 (idx_main_v44 (ix3 t b d)) = ix1 d := funext fun a => by
    match a with | ⟨0, _⟩ => rfl
  simp only [el, er, eb, mixed_flat, Ideal.addf_def]

/-- The tokens plus the projection. -/
theorem resid_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (t : Fin 6) (b : Fin 64) (d : Fin 192) :
    val_main_v46 (F := Ideal) x0 x1 x2 x3 x4 x5 x6 x7 x8 x9 (ix3 t b d) = Cert.Spec.resid (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t d := by
  rw [val_main_v46_apply, proj_flat]
  rfl

/-- The mean of a row. -/
theorem mean_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (t : Fin 6) (b : Fin 64) (z : Fin 1) :
    val_main_v50 (F := Ideal) x0 x1 x2 x3 x4 x5 x6 x7 x8 x9 (ix3 t b z) = Cert.Spec.mean (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t := by
  rw [val_main_v50_apply, val_main_v49_apply, val_main_cst_9_apply, val_main_v48_apply, val_main_v47_apply,
    val_main_cst_8_apply]
  unfold Cert.Spec.mean
  have e : ∀ k : Fin 192, idx_main_v47 (idx_main_v48 (ix3 t b z)) k = ix3 t b k := fun k => funext fun a => by
    match a with | ⟨0, _⟩ => rfl | ⟨1, _⟩ => rfl | ⟨2, _⟩ => rfl
  simp only [e, resid_flat, Ideal.hostDivf_def, Ideal.ofBits_def, Ideal.ofBits_zero_f32, zero_add]

/-- An entry of a row less the row's mean. -/
theorem centred_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (t : Fin 6) (b : Fin 64) (d : Fin 192) :
    val_main_v52 (F := Ideal) x0 x1 x2 x3 x4 x5 x6 x7 x8 x9 (ix3 t b d)
      = Cert.Spec.resid (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t d - Cert.Spec.mean (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t := by
  rw [val_main_v52_apply, val_main_v51_apply]
  have e : idx_main_v51 (ix3 t b d) = ix3 t b (0 : Fin 1) := funext fun a => by
    match a with | ⟨0, _⟩ => rfl | ⟨1, _⟩ => rfl | ⟨2, _⟩ => rfl
  rw [e, mean_flat, resid_flat]
  rfl

/-- The variance of a row. -/
theorem var_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (t : Fin 6) (b : Fin 64) (z : Fin 1) :
    val_main_v57 (F := Ideal) x0 x1 x2 x3 x4 x5 x6 x7 x8 x9 (ix3 t b z) = Cert.Spec.var (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) t := by
  rw [val_main_v57_apply, val_main_v56_apply, val_main_cst_11_apply, val_main_v55_apply, val_main_v54_apply,
    val_main_cst_10_apply]
  unfold Cert.Spec.var
  have e : ∀ k : Fin 192, idx_main_v54 (idx_main_v55 (ix3 t b z)) k = ix3 t b k := fun k => funext fun a => by
    match a with | ⟨0, _⟩ => rfl | ⟨1, _⟩ => rfl | ⟨2, _⟩ => rfl
  simp only [e, val_main_v53_apply, centred_flat, Ideal.hostDivf_def, Ideal.mulf_def, Ideal.ofBits_def,
    Ideal.ofBits_zero_f32, zero_add]

/-- The normalised tokens, token-major. -/
theorem normed_flat (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (x10 : (⟨S192, .f32⟩ : BufTy).Contents (Elt Ideal)) (x11 : (⟨S192, .f32⟩ : BufTy).Contents (Elt Ideal)) (t : Fin 6) (b : Fin 64) (d : Fin 192) :
    val_main_v70 (F := Ideal) x0 x1 x2 x3 x4 x5 x6 x7 x8 x9 x10 x11 (ix3 t b d) = Cert.Spec.normed (Cert.Spec.pixels x0 b) (Cert.Spec.rows x1 b) (fun t n => x2 (ix2 t n)) (fun t => x3 (ix1 t)) (fun c d => x4 (ix2 c d)) (fun c => x5 (ix1 c)) (fun c d => x6 (ix2 c d)) (fun c => x7 (ix1 c)) (fun d c => x8 (ix2 d c)) (fun d => x9 (ix1 d)) (fun d => x10 (ix1 d)) (fun d => x11 (ix1 d)) t d := by
  rw [val_main_v70_apply, val_main_v69_apply, val_main_v68_apply, val_main_v67_apply, val_main_v66_apply,
    val_main_v65_apply, val_main_v64_apply, val_main_v63_apply, val_main_v62_apply, val_main_v61_apply,
    val_main_v60_apply, val_main_cst_12_apply, val_main_v59_apply, val_main_v58_apply]
  have e58 : idx_main_v58 (ix3 t b d) = ix3 t b (0 : Fin 1) := funext fun a => by
    match a with | ⟨0, _⟩ => rfl | ⟨1, _⟩ => rfl | ⟨2, _⟩ => rfl
  have e63 : idx_main_v63 (ix3 t b d) = ix3 t b (0 : Fin 1) := funext fun a => by
    match a with | ⟨0, _⟩ => rfl | ⟨1, _⟩ => rfl | ⟨2, _⟩ => rfl
  have e65 : idx_main_v65 (idx_main_v66 (ix3 t b d)) = ix1 d := funext fun a => by
    match a with | ⟨0, _⟩ => rfl
  have e68 : idx_main_v68 (idx_main_v69 (ix3 t b d)) = ix1 d := funext fun a => by
    match a with | ⟨0, _⟩ => rfl
  rw [e58, e63, e65, e68, mean_flat, var_flat, resid_flat]
  unfold Cert.Spec.normed
  simp only [Ideal.addf_def, Ideal.mulf_def, Ideal.subf_def, Ideal.hostUnary_rsqrt_def, Ideal.ofBits_def]

/-- The first result. -/
theorem ref_tokens (x0 : (⟨S64x256x56x56, .f32⟩ : BufTy).Contents (Elt Ideal)) (x1 : (⟨S6x64x192, .f32⟩ : BufTy).Contents (Elt Ideal)) (x2 : (⟨S6x3136, .f32⟩ : BufTy).Contents (Elt Ideal)) (x3 : (⟨S6, .f32⟩ : BufTy).Contents (Elt Ideal)) (x4 : (⟨S256x192, .f32⟩ : BufTy).Contents (Elt Ideal)) (x5 : (⟨S256, .f32⟩ : BufTy).Contents (Elt Ideal)) (x6 : (⟨S256x192, .f32⟩ : BufTy).Contents (Elt Ideal)) (x7 : (⟨S256, .f32⟩ : BufTy).Contents (Elt Ideal)) (x8 : (⟨S192x256, .f32⟩ : BufTy).Contents (Elt Ideal)) (x9 : (⟨S192, .f32⟩ : BufTy).Contents (Elt Ideal)) (x10 : (⟨S192, .f32⟩ : BufTy).Contents (Elt Ideal)) (x11 : (⟨S192, .f32⟩ : BufTy).Contents (Elt Ideal)) :
    Cert.ReferenceIdeal.Read.val_main_v70 (F := Ideal) x0 x1 x2 x3 x4 x5 x6 x7 x8 x9 x10 x11
      = Cert.Spec.tokensOut x0 x1 x2 x3 x4 x5 x6 x7 x8 x9 x10 x11 := by
  funext i
  obtain ⟨t, b, d, rfl⟩ : ∃ (t : Fin 6) (b : Fin 64) (d : Fin 192), i = ix3 t b d := ⟨i 0, i 1, i 2, eq_ix3 i⟩
  exact normed_flat x0 x1 x2 x3 x4 x5 x6 x7 x8 x9 x10 x11 t b d

end Cert.RefValue

end
-- ==== Proof.KernelReads.lean ====
/-
  Layout operations, last-axis reductions and head-batched contractions of three-axis arrays, read at an index given by
  coordinates, at the ideal values.

  • the two leading axes of an [a, b, c] array exchanged; an [a, b] array given a trailing unit axis, and an [a, b, 1]
    array repeated along it to [a, b, n];
  • a sum and a maximum along the last axis of an [a, b, n] array: the sum of the n entries, and the fold of `max` over
    them from the accumulator's value;
  • 256 channels read as 4 heads of 64 lanes: channel `64 h + d` is lane `d` of head `h`, for a [6, 256] array split to
    [6, 4, 64] and joined back, and for a [256, 3136] array split to [4, 64, 3136];
  • a product per head: [4, 6, 64] by [4, 64, 3136] over the 64 lanes, and [4, 6, 3136] by [4, 64, 3136] over the 3136
    pixels, each into a zero accumulator: entry by entry the plain sums of products, with no order of summation left.
-/
import proofs.«143514_j120259084729_1_alg».proof.Proof.Gen.KernelIdeal
import proofs.«143514_j120259084729_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelReads

open Idealize.ShloMosaic Idealize.ShloMosaic.ValueIdx Cert.Spec Cert.KernelIdeal

variable {α : Type}

/-! ## Layout -/

/-- The two leading axes exchanged: the result at `(j, i, k)` is the operand at `(i, j, k)`. -/
theorem transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- An `[a, b]` array given a trailing unit axis reads, at `(i, j, u)`, the operand at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array repeated along its last axis reads, at `(i, j, k)`, the operand at `(i, j, 0)`. -/
theorem bcast_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Along the last axis -/

/-- Position `(i, j)` of an `[a, b, n]` array with the last coordinate `k` put back is `(i, j, k)`. -/
theorem lift_last {a b n : ℕ} (h : (⟨3, ![a, b, n]⟩ : Shape).Reduces [2] (⟨2, ![a, b]⟩ : Shape)) (i : Fin a) (j : Fin b)
    (k : Fin n) : h.lift (ix2 i j) k = ix3 i j k := by
  funext c; apply Fin.ext
  fin_cases c <;> rfl

/-- A float sum along the last axis, at `(i, j)`: the sum of the `n` entries there. -/
theorem lastSum_apply {φ : FTy} {a b n : ℕ} (v : FVec Ideal ⟨3, ![a, b, n]⟩ φ) (acc : BitVec φ.bits)
    (h : (⟨3, ![a, b, n]⟩ : Shape).Reduces [2] (⟨2, ![a, b]⟩ : Shape)) (hφ : FKind.Formats φ)
    (hacc : acc = FKind.add.neutral φ hφ) (i : Fin a) (j : Fin b) :
    multiReduction (F := Ideal) .add [2] ⟨2, ![a, b]⟩ v acc h hφ hacc (ix2 i j) = ∑ k : Fin n, v (ix3 i j k) := by
  rw [Ideal.multiReduction_add_single]
  exact Finset.sum_congr rfl fun k _ => congrArg v (lift_last h i j k)

/-- A float maximum along the last axis, at `(i, j)`: the fold of `max` over the `n` entries there from the
    accumulator's value. -/
theorem lastMax_apply {φ : FTy} {a b n : ℕ} (v : FVec Ideal ⟨3, ![a, b, n]⟩ φ) (acc : BitVec φ.bits)
    (h : (⟨3, ![a, b, n]⟩ : Shape).Reduces [2] (⟨2, ![a, b]⟩ : Shape)) (hφ : FKind.Formats φ)
    (hacc : acc = FKind.maximumf.neutral φ hφ) (i : Fin a) (j : Fin b) :
    multiReduction (F := Ideal) .maximumf [2] ⟨2, ![a, b]⟩ v acc h hφ hacc (ix2 i j)
      = (Finset.univ : Finset (Fin n)).fold max (Ideal.ofBits φ acc) (fun k => v (ix3 i j k)) := by
  rw [Ideal.multiReduction_maximumf_single]
  exact congrArg (fun f => Finset.fold max (Ideal.ofBits φ acc) f (Finset.univ : Finset (Fin n)))
    (funext fun k => congrArg v (lift_last h i j k))

/-! ## Channels as heads × lanes -/

/-- A `[6, 256]` array split to `[6, 4, 64]` reads, at `(t, h, d)`, the operand at `(t, 64 h + d)`. -/
theorem split_6x256_apply (x : (⟨2, ![6, 256]⟩ : Shape).Idx → α)
    (h : (⟨2, ![6, 256]⟩ : Shape).ShapeCasts ⟨3, ![6, 4, 64]⟩) (t : Fin 6) (hd : Fin 4) (d : Fin 64) :
    shapeCast ⟨3, ![6, 4, 64]⟩ x h (ix3 t hd d) = x (ix2 t (chan hd d)) :=
  shapeCast_apply x h _ _ (by
    rw [Shape.rowMajor_val_two, Shape.rowMajor_val_three]
    show t.val * 256 + (hd.val * 64 + d.val) = (t.val * 4 + hd.val) * 64 + d.val
    omega)

/-- A `[6, 4, 64]` array joined to `[6, 256]` reads, at `(t, c)`, the operand at `(t, c / 64, c % 64)`. -/
theorem join_6x4x64_apply (x : (⟨3, ![6, 4, 64]⟩ : Shape).Idx → α)
    (h : (⟨3, ![6, 4, 64]⟩ : Shape).ShapeCasts ⟨2, ![6, 256]⟩) (t : Fin 6) (c : Fin 256) :
    shapeCast ⟨2, ![6, 256]⟩ x h (ix2 t c) = x (ix3 t (headOf c) (laneOf c)) :=
  shapeCast_apply x h _ _ (by
    rw [Shape.rowMajor_val_three, Shape.rowMajor_val_two]
    show (t.val * 4 + c.val / 64) * 64 + c.val % 64 = t.val * 256 + c.val
    omega)

/-- A `[256, 3136]` array split to `[4, 64, 3136]` reads, at `(h, d, n)`, the operand at `(64 h + d, n)`. -/
theorem split_256x3136_apply (x : (⟨2, ![256, 3136]⟩ : Shape).Idx → α)
    (h : (⟨2, ![256, 3136]⟩ : Shape).ShapeCasts ⟨3, ![4, 64, 3136]⟩) (hd : Fin 4) (d : Fin 64) (n : Fin 3136) :
    shapeCast ⟨3, ![4, 64, 3136]⟩ x h (ix3 hd d n) = x (ix2 (chan hd d) n) :=
  shapeCast_apply x h _ _ (by
    rw [Shape.rowMajor_val_two, Shape.rowMajor_val_three]
    show (hd.val * 64 + d.val) * 3136 + n.val = (hd.val * 64 + d.val) * 3136 + n.val
    rfl)

/-! ## A product per head -/

/-! Where each operand is read, axis by axis: the head from the result's head, the kept axis from the result's, the
    contracted axis from the contraction position. -/

theorem lanes_lhs_0 (i : S4x6x3136.Idx) (q : dot_S4x6x64_S4x64x3136_S4x6x3136_2_1_1_2_0_0.contr.Idx) :
    (dot_S4x6x64_S4x64x3136_S4x6x3136_2_1_1_2_0_0.lhsIdx i q 0).val = (i 0).val := by
  unfold DotDims.lhsIdx
  rw [dif_pos (show (0 : Fin S4x6x64.rank) ∈ dot_S4x6x64_S4x64x3136_S4x6x3136_2_1_1_2_0_0.lhsBatch by decide)]
  rfl
theorem lanes_lhs_1 (i : S4x6x3136.Idx) (q : dot_S4x6x64_S4x64x3136_S4x6x3136_2_1_1_2_0_0.contr.Idx) :
    (dot_S4x6x64_S4x64x3136_S4x6x3136_2_1_1_2_0_0.lhsIdx i q 1).val = (i 1).val := by
  unfold DotDims.lhsIdx
  rw [dif_neg (show ¬(1 : Fin S4x6x64.rank) ∈ dot_S4x6x64_S4x64x3136_S4x6x3136_2_1_1_2_0_0.lhsBatch by decide), dif_pos (show (1 : Fin S4x6x64.rank) ∈ dot_S4x6x64_S4x64x3136_S4x6x3136_2_1_1_2_0_0.lhsNonContracting by decide)]
  rfl
theorem lanes_lhs_2 (i : S4x6x3136.Idx) (q : dot_S4x6x64_S4x64x3136_S4x6x3136_2_1_1_2_0_0.contr.Idx) :
    (dot_S4x6x64_S4x64x3136_S4x6x3136_2_1_1_2_0_0.lhsIdx i q 2).val = (q ⟨0, by decide⟩).val :=
  dot_S4x6x64_S4x64x3136_S4x6x3136_2_1_1_2_0_0.lhsIdx_val_of_single rfl i q
theorem lanes_rhs_0 (i : S4x6x3136.Idx) (q : dot_S4x6x64_S4x64x3136_S4x6x3136_2_1_1_2_0_0.contr.Idx) :
    (dot_S4x6x64_S4x64x3136_S4x6x3136_2_1_1_2_0_0.rhsIdx i q 0).val = (i 0).val := by
  unfold DotDims.rhsIdx
  rw [dif_pos (show (0 : Fin S4x64x3136.rank) ∈ dot_S4x6x64_S4x64x3136_S4x6x3136_2_1_1_2_0_0.rhsBatch by decide)]
  rfl
theorem lanes_rhs_1 (i : S4x6x3136.Idx) (q : dot_S4x6x64_S4x64x3136_S4x6x3136_2_1_1_2_0_0.contr.Idx) :
    (dot_S4x6x64_S4x64x3136_S4x6x3136_2_1_1_2_0_0.rhsIdx i q 1).val = (q ⟨0, by decide⟩).val :=
  dot_S4x6x64_S4x64x3136_S4x6x3136_2_1_1_2_0_0.rhsIdx_val_of_single rfl i q
theorem lanes_rhs_2 (i : S4x6x3136.Idx) (q : dot_S4x6x64_S4x64x3136_S4x6x3136_2_1_1_2_0_0.contr.Idx) :
    (dot_S4x6x64_S4x64x3136_S4x6x3136_2_1_1_2_0_0.rhsIdx i q 2).val = (i 2).val := by
  unfold DotDims.rhsIdx
  rw [dif_neg (show ¬(2 : Fin S4x64x3136.rank) ∈ dot_S4x6x64_S4x64x3136_S4x6x3136_2_1_1_2_0_0.rhsBatch by decide), dif_pos (show (2 : Fin S4x64x3136.rank) ∈ dot_S4x6x64_S4x64x3136_S4x6x3136_2_1_1_2_0_0.rhsNonContracting by decide)]
  rfl

/-- Queries by keys: at `(h, t, n)` the sum over the 64 lanes of `l (h, t, d) · r (h, d, n)`. -/
theorem headDot_lanes_apply {φ₁ φ₂ : FTy} (l : FVec Ideal S4x6x64 φ₁) (r : FVec Ideal S4x64x3136 φ₂)
    (hd : Fin 4) (t : Fin 6) (n : Fin 3136) :
    FloatOps.matmul dot_S4x6x64_S4x64x3136_S4x6x3136_2_1_1_2_0_0 none l r (constant S4x6x3136 .f32 0x00000000#32) (ix3 hd t n)
      = ∑ d : Fin 64, l (ix3 hd t d) * r (ix3 hd d n) := by
  rw [Ideal.matmul_constant_zero_apply, ← Equiv.sum_comp (contrEquiv1 dot_S4x6x64_S4x64x3136_S4x6x3136_2_1_1_2_0_0 64 rfl rfl).symm]
  refine Finset.sum_congr rfl fun k _ => ?_
  have hk := contrEquiv1_symm_val dot_S4x6x64_S4x64x3136_S4x6x3136_2_1_1_2_0_0 64 rfl rfl k
  have el : dot_S4x6x64_S4x64x3136_S4x6x3136_2_1_1_2_0_0.lhsIdx (ix3 hd t n) ((contrEquiv1 dot_S4x6x64_S4x64x3136_S4x6x3136_2_1_1_2_0_0 64 rfl rfl).symm k) = ix3 hd t k :=
    funext fun a => Fin.ext (by
      match a with
      | ⟨0, _⟩ => exact lanes_lhs_0 _ _
      | ⟨1, _⟩ => exact lanes_lhs_1 _ _
      | ⟨2, _⟩ => exact (lanes_lhs_2 _ _).trans hk)
  have er : dot_S4x6x64_S4x64x3136_S4x6x3136_2_1_1_2_0_0.rhsIdx (ix3 hd t n) ((contrEquiv1 dot_S4x6x64_S4x64x3136_S4x6x3136_2_1_1_2_0_0 64 rfl rfl).symm k) = ix3 hd k n :=
    funext fun a => Fin.ext (by
      match a with
      | ⟨0, _⟩ => exact lanes_rhs_0 _ _
      | ⟨1, _⟩ => exact (lanes_rhs_1 _ _).trans hk
      | ⟨2, _⟩ => exact lanes_rhs_2 _ _)
  rw [el, er]

theorem pixels_lhs_0 (i : S4x6x64.Idx) (q : dot_S4x6x3136_S4x64x3136_S4x6x64_2_2_1_1_0_0.contr.Idx) :
    (dot_S4x6x3136_S4x64x3136_S4x6x64_2_2_1_1_0_0.lhsIdx i q 0).val = (i 0).val := by
  unfold DotDims.lhsIdx
  rw [dif_pos (show (0 : Fin S4x6x3136.rank) ∈ dot_S4x6x3136_S4x64x3136_S4x6x64_2_2_1_1_0_0.lhsBatch by decide)]
  rfl
theorem pixels_lhs_1 (i : S4x6x64.Idx) (q : dot_S4x6x3136_S4x64x3136_S4x6x64_2_2_1_1_0_0.contr.Idx) :
    (dot_S4x6x3136_S4x64x3136_S4x6x64_2_2_1_1_0_0.lhsIdx i q 1).val = (i 1).val := by
  unfold DotDims.lhsIdx
  rw [dif_neg (show ¬(1 : Fin S4x6x3136.rank) ∈ dot_S4x6x3136_S4x64x3136_S4x6x64_2_2_1_1_0_0.lhsBatch by decide), dif_pos (show (1 : Fin S4x6x3136.rank) ∈ dot_S4x6x3136_S4x64x3136_S4x6x64_2_2_1_1_0_0.lhsNonContracting by decide)]
  rfl
theorem pixels_lhs_2 (i : S4x6x64.Idx) (q : dot_S4x6x3136_S4x64x3136_S4x6x64_2_2_1_1_0_0.contr.Idx) :
    (dot_S4x6x3136_S4x64x3136_S4x6x64_2_2_1_1_0_0.lhsIdx i q 2).val = (q ⟨0, by decide⟩).val :=
  dot_S4x6x3136_S4x64x3136_S4x6x64_2_2_1_1_0_0.lhsIdx_val_of_single rfl i q
theorem pixels_rhs_0 (i : S4x6x64.Idx) (q : dot_S4x6x3136_S4x64x3136_S4x6x64_2_2_1_1_0_0.contr.Idx) :
    (dot_S4x6x3136_S4x64x3136_S4x6x64_2_2_1_1_0_0.rhsIdx i q 0).val = (i 0).val := by
  unfold DotDims.rhsIdx
  rw [dif_pos (show (0 : Fin S4x64x3136.rank) ∈ dot_S4x6x3136_S4x64x3136_S4x6x64_2_2_1_1_0_0.rhsBatch by decide)]
  rfl
theorem pixels_rhs_1 (i : S4x6x64.Idx) (q : dot_S4x6x3136_S4x64x3136_S4x6x64_2_2_1_1_0_0.contr.Idx) :
    (dot_S4x6x3136_S4x64x3136_S4x6x64_2_2_1_1_0_0.rhsIdx i q 1).val = (i 2).val := by
  unfold DotDims.rhsIdx
  rw [dif_neg (show ¬(1 : Fin S4x64x3136.rank) ∈ dot_S4x6x3136_S4x64x3136_S4x6x64_2_2_1_1_0_0.rhsBatch by decide), dif_pos (show (1 : Fin S4x64x3136.rank) ∈ dot_S4x6x3136_S4x64x3136_S4x6x64_2_2_1_1_0_0.rhsNonContracting by decide)]
  rfl
theorem pixels_rhs_2 (i : S4x6x64.Idx) (q : dot_S4x6x3136_S4x64x3136_S4x6x64_2_2_1_1_0_0.contr.Idx) :
    (dot_S4x6x3136_S4x64x3136_S4x6x64_2_2_1_1_0_0.rhsIdx i q 2).val = (q ⟨0, by decide⟩).val :=
  dot_S4x6x3136_S4x64x3136_S4x6x64_2_2_1_1_0_0.rhsIdx_val_of_single rfl i q

/-- Weights by values: at `(h, t, d)` the sum over the 3136 pixels of `l (h, t, n) · r (h, d, n)`. -/
theorem headDot_pixels_apply {φ₁ φ₂ : FTy} (l : FVec Ideal S4x6x3136 φ₁) (r : FVec Ideal S4x64x3136 φ₂)
    (hd : Fin 4) (t : Fin 6) (d : Fin 64) :
    FloatOps.matmul dot_S4x6x3136_S4x64x3136_S4x6x64_2_2_1_1_0_0 none l r (constant S4x6x64 .f32 0x00000000#32) (ix3 hd t d)
      = ∑ n : Fin 3136, l (ix3 hd t n) * r (ix3 hd d n) := by
  rw [Ideal.matmul_constant_zero_apply, ← Equiv.sum_comp (contrEquiv1 dot_S4x6x3136_S4x64x3136_S4x6x64_2_2_1_1_0_0 3136 rfl rfl).symm]
  refine Finset.sum_congr rfl fun k _ => ?_
  have hk := contrEquiv1_symm_val dot_S4x6x3136_S4x64x3136_S4x6x64_2_2_1_1_0_0 3136 rfl rfl k
  have el : dot_S4x6x3136_S4x64x3136_S4x6x64_2_2_1_1_0_0.lhsIdx (ix3 hd t d) ((contrEquiv1 dot_S4x6x3136_S4x64x3136_S4x6x64_2_2_1_1_0_0 3136 rfl rfl).symm k) = ix3 hd t k :=
    funext fun a => Fin.ext (by
      match a with
      | ⟨0, _⟩ => exact pixels_lhs_0 _ _
      | ⟨1, _⟩ => exact pixels_lhs_1 _ _
      | ⟨2, _⟩ => exact (pixels_lhs_2 _ _).trans hk)
  have er : dot_S4x6x3136_S4x64x3136_S4x6x64_2_2_1_1_0_0.rhsIdx (ix3 hd t d) ((contrEquiv1 dot_S4x6x3136_S4x64x3136_S4x6x64_2_2_1_1_0_0 3136 rfl rfl).symm k) = ix3 hd d k :=
    funext fun a => Fin.ext (by
      match a with
      | ⟨0, _⟩ => exact pixels_rhs_0 _ _
      | ⟨1, _⟩ => exact pixels_rhs_1 _ _
      | ⟨2, _⟩ => exact (pixels_rhs_2 _ _).trans hk)
  rw [el, er]

end Cert.KernelReads

end
-- ==== Proof.KernelTail.lean ====
/-
  The two host operations after the kernel, read at an index: the tokens' array, left batch-major by the kernel, has
  its two leading axes exchanged; the scores' last axis of 3136 pixels is reshaped to 56 rows of 56, pixel `56 r + s`
  going to row `r`, column `s`.
-/
import proofs.«143514_j120259084729_1_alg».proof.Proof.Gen.KernelIdeal.Frame
import proofs.«143514_j120259084729_1_alg».proof.Proof.Spec
import proofs.«143514_j120259084729_1_alg».proof.Proof.KernelReads
import Idealize.ShloMosaic.Lib.Pipeline.Value
import Idealize.ShloMosaic.Lib.StableHlo.Run
import Idealize.ShloMosaic.Lib.ValueIdx

noncomputable section

namespace Cert.KernelTail

open Idealize.ShloMosaic Idealize.ShloMosaic.TcCoe Idealize.ShloMosaic.ValueIdx Idealize.SL.Sem Idealize.ShloMosaic.StableHlo
open Cert.KernelIdeal Cert.KernelIdeal.Gen Cert.KernelReads

variable (m : (ℓ : Loc nD τ sig) → Buf (Elt Ideal) ℓ)

/-- The first result is the kernel's token array with batch and token exchanged. -/
theorem tail_tokens (c : Dev nD)
    (h12 : (dats m 0 c).arrAt 12 cfg0.N = Cert.Spec.tokensBatchMajor (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    Pipeline.afterTail₀ cfgs (dats m) 0 (V0 m) [hostOps1] c main_v3 = Cert.Spec.tokensOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  show StableHlo.after hostOps1 _ (Proc.devRef .tc main_v3) = _
  after_results
  rw [(Pipeline.withArrays_arr spec0 launch0.win.arr_inj c _ _ 12).trans h12]
  funext i
  obtain ⟨t, b, d, rfl⟩ : ∃ (t : Fin 6) (b : Fin 64) (d : Fin 192), i = ix3 t b d := ⟨i 0, i 1, i 2, eq_ix3 i⟩
  exact transpose_102_apply _ _ t b d

/-- The second result is the kernel's score array with each row of pixels laid out 56 × 56. -/
theorem tail_scores (c : Dev nD)
    (h13 : (dats m 0 c).arrAt 13 cfg0.N = Cert.Spec.scoresFlat (m ((c.tc : Thread nD τ).loc main_arg0)) (m ((c.tc : Thread nD τ).loc main_arg1)) (m ((c.tc : Thread nD τ).loc main_arg4)) (m ((c.tc : Thread nD τ).loc main_arg5))) :
    Pipeline.afterTail₀ cfgs (dats m) 0 (V0 m) [hostOps1] c main_v4 = Cert.Spec.scoresOut (m ((c.tc : Thread nD τ).loc main_arg0)) (m ((c.tc : Thread nD τ).loc main_arg1)) (m ((c.tc : Thread nD τ).loc main_arg4)) (m ((c.tc : Thread nD τ).loc main_arg5)) := by
  unfold Pipeline.afterTail₀
  show StableHlo.after hostOps1 _ (Proc.devRef .tc main_v4) = _
  after_results
  rw [(Pipeline.withArrays_arr spec0 launch0.win.arr_inj c _ _ 13).trans h13]
  funext i
  obtain ⟨b, h, t, r, s, rfl⟩ : ∃ (b : Fin 64) (h : Fin 4) (t : Fin 6) (r s : Fin 56), i = ix5 b h t r s :=
    ⟨i 0, i 1, i 2, i 3, i 4, eq_ix5 i⟩
  refine (shapeCast_apply _ _ (ix5 b h t r s) (ix4 b h t (Cert.Spec.pixAt r s)) ?_).trans rfl
  rw [Shape.rowMajor_val_four, Shape.rowMajor_val_five]
  show ((b.val * 4 + h.val) * 6 + t.val) * 3136 + (r.val * 56 + s.val)
    = ((((b.val * 4 + h.val) * 6 + t.val) * 56 + r.val) * 56 + s.val)
  omega

end Cert.KernelTail

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.KernelBlock.lean ====
/-
  What the kernel's body computes from one image's blocks, read at an index: each stored value is the
  specification's function of the blocks' entries.

  The blocks are [1, 256, 3136] (the image's channels × pixels) and [1, 6, 192] (its token rows); the weights come
  whole. Reading goes operation by operation: a change of float format is the identity on the extended reals, a
  product with a transposed matrix into a zero accumulator is the plain sum of products, a bias is a row or a column
  repeated, the heads are the 256 channels read 64 at a time.
-/
import proofs.«143514_j120259084729_1_alg».proof.Proof.Gen.KernelIdeal.Skeleton
import proofs.«143514_j120259084729_1_alg».proof.Proof.Spec
import proofs.«143514_j120259084729_1_alg».proof.Proof.KernelReads
import proofs.«143514_j120259084729_1_alg».proof.Proof.LibDotNT
import proofs.«143514_j120259084729_1_alg».proof.Proof.LibRowReads
import proofs.«143514_j120259084729_1_alg».proof.Proof.LibColumnReads
import Idealize.ShloMosaic.Lib.ValueIdx
import Idealize.ShloMosaic.Lib.ValueLayout
import Idealize.ShloMosaic.PureOps.IdealRules

open scoped BigOperators

noncomputable section

namespace Cert.KernelBlock

open Idealize.ShloMosaic Idealize.ShloMosaic.ValueIdx Cert.Spec Cert.KernelIdeal Cert.KernelIdeal.Gen Cert.KernelReads

/-- A two-axis array as a function of its two coordinates, -/
abbrev mat {a b : ℕ} (x : (⟨2, ![a, b]⟩ : Shape).Idx → EReal) : Fin a → Fin b → EReal := fun i j => x (ix2 i j)
/-- a one-axis array as a function of its coordinate, -/
abbrev vec {a : ℕ} (x : (⟨1, ![a]⟩ : Shape).Idx → EReal) : Fin a → EReal := fun i => x (ix1 i)
/-- and a block with a leading unit axis as a function of its other two. -/
abbrev blk {a b : ℕ} (x : (⟨3, ![1, a, b]⟩ : Shape).Idx → EReal) : Fin a → Fin b → EReal := fun i j => x (ix3 (0 : Fin 1) i j)

/-! ## The blocks as the body first reads them -/

theorem pay3_apply (x0 : Vec Ideal S1x256x3136 .f32) (c : Fin 256) (n : Fin 3136) :
    k0_pay3 (F := Ideal) x0 (ix2 c n) = blk x0 c n := by
  unfold k0_pay3
  exact shapeCast_1ab_ab_apply x0 _ c n

theorem pay4_apply (x1 : Vec Ideal S1x6x192 .f32) (t : Fin 6) (d : Fin 192) :
    k0_pay4 (F := Ideal) x1 (ix2 t d) = blk x1 t d := by
  unfold k0_pay4
  exact shapeCast_1ab_ab_apply x1 _ t d

theorem pay5_apply (x1 : Vec Ideal S1x6x192 .f32) (t : Fin 6) (d : Fin 192) :
    k0_pay5 (F := Ideal) x1 (ix2 t d) = blk x1 t d := by
  unfold k0_pay5
  exact pay4_apply x1 t d

theorem pay9_apply (x0 : Vec Ideal S1x256x3136 .f32) (h : Fin 4) (d : Fin 64) (n : Fin 3136) :
    k0_pay9 (F := Ideal) x0 (ix3 h d n) = blk x0 (chan h d) n := by
  unfold k0_pay9
  exact (split_256x3136_apply _ _ h d n).trans (pay3_apply x0 (chan h d) n)

/-! ## An affine map of rows: a product with a transposed matrix plus a bias row -/

/-- A `[1, b]`-shaped copy of a vector repeated down `a` rows reads the vector at the column. -/
theorem biasRow_apply {a b : ℕ} (v : (⟨1, ![b]⟩ : Shape).Idx → EReal) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ 0 c)

/-- A vector made a column and repeated along `b` columns reads the vector at the row. -/
theorem biasCol_apply {a b : ℕ} (v : (⟨1, ![a]⟩ : Shape).Idx → EReal) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ v h₁) h₂ (ix2 p c) = v (ix1 p) :=
  (Cert.LibColumnReads.broadcastTo_a1_ab_apply _ h₂ p c).trans (Cert.LibColumnReads.shapeCast_a_a1_apply v h₁ p 0)

/-- Six rows of 192 by 256 rows of 192, plus a bias per column. -/
theorem affine_192_256_apply {φ₁ φ₂ : FTy} (l : FVec Ideal S6x192 φ₁) (r : FVec Ideal S256x192 φ₂) (b : Vec Ideal S256 .f32)
    (t : Fin 6) (c : Fin 256) :
    addf (matmul dot_S6x192_S256x192_S6x256_1_1_0_0_n_n none l r (constant S6x256 .f32 0x00000000#32))
        (broadcastTo S6x256 (shapeCast S1x256 b shapeCasts_S256_S1x256) broadcasts_S1x256_S6x256) (ix2 t c)
      = (∑ d : Fin 192, l (ix2 t d) * r (ix2 c d)) + b (ix1 c) := by
  rw [addf_apply]
  exact congrArg₂ (· + ·) (Cert.Lib.DotNT.matmul_zero_apply none l r t c) (biasRow_apply b _ _ t c)

/-- Six rows of 256 by 192 rows of 256, plus a bias per column. -/
theorem affine_256_192_apply {φ₁ φ₂ : FTy} (l : FVec Ideal S6x256 φ₁) (r : FVec Ideal S192x256 φ₂) (b : Vec Ideal S192 .f32)
    (t : Fin 6) (d : Fin 192) :
    addf (matmul dot_S6x256_S192x256_S6x192_1_1_0_0_n_n none l r (constant S6x192 .f32 0x00000000#32))
        (broadcastTo S6x192 (shapeCast S1x192 b shapeCasts_S192_S1x192) broadcasts_S1x192_S6x192) (ix2 t d)
      = (∑ c : Fin 256, l (ix2 t c) * r (ix2 d c)) + b (ix1 d) := by
  rw [addf_apply]
  exact congrArg₂ (· + ·) (Cert.Lib.DotNT.matmul_zero_apply none l r t d) (biasRow_apply b _ _ t d)

/-! ## The linear branch and the scores -/

theorem pay8_apply (x0 : Vec Ideal S1x256x3136 .f32) (x2 : Vec Ideal S6x3136 .f32) (x3 : Vec Ideal S6 .f32) (t : Fin 6) (c : Fin 256) :
    k0_pay8 (F := Ideal) x0 x2 x3 (ix2 t c) = lin (blk x0) (mat x2) (vec x3) t c := by
  unfold k0_pay8 lin
  rw [addf_apply]
  refine congrArg₂ (· + ·) ?_ (biasCol_apply x3 _ _ t c)
  refine (Cert.Lib.DotNT.matmul_zero_apply none _ _ t c).trans ?_
  exact Finset.sum_congr rfl fun n _ => congrArg (x2 (ix2 t n) * ·) (pay3_apply x0 c n)

theorem pay10_apply (x0 : Vec Ideal S1x256x3136 .f32) (x1 : Vec Ideal S1x6x192 .f32) (x4 : Vec Ideal S256x192 .f32)
    (x5 : Vec Ideal S256 .f32) (h : Fin 4) (t : Fin 6) (n : Fin 3136) :
    k0_pay10 (F := Ideal) x0 x1 x4 x5 (ix3 h t n) = score (blk x0) (blk x1) (mat x4) (vec x5) h t n := by
  unfold k0_pay10 score
  rw [mulf_apply]
  refine congrArg (· * Ideal.ofBits .f32 0x3E000000#32) ?_
  refine (headDot_lanes_apply _ _ h t n).trans ?_
  refine Finset.sum_congr rfl fun d _ => congrArg₂ (· * ·) ?_ (pay9_apply x0 h d n)
  rw [truncf_apply]
  refine (transpose_102_apply _ _ h t d).trans ?_
  refine (split_6x256_apply _ _ t h d).trans ?_
  unfold query
  refine (affine_192_256_apply _ _ x5 t (chan h d)).trans ?_
  exact congrArg (· + x5 (ix1 (chan h d))) (Finset.sum_congr rfl fun e _ => congrArg (· * x4 (ix2 (chan h d) e)) (pay5_apply x1 t e))

/-! ## The softmax along the pixels -/

section body

variable (P : Fin 256 → Fin 3136 → EReal) (T : Fin 6 → Fin 192 → EReal)
  (Wm : Fin 6 → Fin 3136 → EReal) (bm : Fin 6 → EReal)
  (Wq : Fin 256 → Fin 192 → EReal) (bq : Fin 256 → EReal)
  (Wa : Fin 256 → Fin 192 → EReal) (ba : Fin 256 → EReal)
  (Wp : Fin 192 → Fin 256 → EReal) (bp : Fin 192 → EReal)

theorem top_apply (v34 : FVec Ideal S4x6x3136 .f32) (h34 : ∀ h t n, v34 (ix3 h t n) = score P T Wq bq h t n) (h : Fin 4) (t : Fin 6) :
    maximumf (broadcast S4x6 (Scalar.ofBits .f32 0xFF800000#32 : Ideal .f32))
        (multiReduction .maximumf [2] S4x6 v34 0xFF800000#32 reduces_S4x6x3136_S4x6 (.inl rfl) rfl) (ix2 h t)
      = top P T Wq bq h t := by
  unfold top
  rw [maximumf_apply]
  refine congrArg (max (Ideal.ofBits .f32 0xFF800000#32)) ?_
  refine (lastMax_apply v34 _ _ _ _ h t).trans ?_
  exact congrArg (fun f => Finset.fold max (Ideal.ofBits .f32 0xFF800000#32) f (Finset.univ : Finset (Fin 3136)))
    (funext fun n => h34 h t n)

theorem expo_apply (v34 : FVec Ideal S4x6x3136 .f32) (v37 : FVec Ideal S4x6 .f32)
    (h34 : ∀ h t n, v34 (ix3 h t n) = score P T Wq bq h t n) (h37 : ∀ h t, v37 (ix2 h t) = top P T Wq bq h t)
    (h : Fin 4) (t : Fin 6) (n : Fin 3136) :
    exp (subf v34 (broadcastTo S4x6x3136 (shapeCast S4x6x1 v37 shapeCasts_S4x6_S4x6x1) broadcasts_S4x6x1_S4x6x3136)) (ix3 h t n)
      = expo P T Wq bq h t n := by
  unfold expo
  show Ideal.exp (v34 (ix3 h t n)
      - broadcastTo S4x6x3136 (shapeCast S4x6x1 v37 shapeCasts_S4x6_S4x6x1) broadcasts_S4x6x1_S4x6x3136 (ix3 h t n)) = _
  rw [h34 h t n, bcast_ab1_abn_apply, cast_ab_ab1_apply, h37 h t]

theorem mass_apply (v41 : FVec Ideal S4x6x3136 .f32) (h41 : ∀ h t n, v41 (ix3 h t n) = expo P T Wq bq h t n) (h : Fin 4) (t : Fin 6) :
    multiReduction .add [2] S4x6 v41 0x00000000#32 reduces_S4x6x3136_S4x6 (.inl rfl) rfl (ix2 h t) = mass P T Wq bq h t := by
  unfold mass
  refine (lastSum_apply v41 _ _ _ _ h t).trans ?_
  exact Finset.sum_congr rfl fun n _ => h41 h t n

theorem weight_apply (v41 : FVec Ideal S4x6x3136 .f32) (v42 : FVec Ideal S4x6 .f32)
    (h41 : ∀ h t n, v41 (ix3 h t n) = expo P T Wq bq h t n) (h42 : ∀ h t, v42 (ix2 h t) = mass P T Wq bq h t)
    (h : Fin 4) (t : Fin 6) (n : Fin 3136) :
    truncf .bf16 (divf v41 (broadcastTo S4x6x3136 (shapeCast S4x6x1 v42 shapeCasts_S4x6_S4x6x1) broadcasts_S4x6x1_S4x6x3136))
        bitsLt_bf16_f32 (ix3 h t n) = weight P T Wq bq h t n := by
  unfold weight
  rw [truncf_apply, divf_apply, h41 h t n, bcast_ab1_abn_apply, cast_ab_ab1_apply, h42 h t]

/-! ## The attended pixels, back in token-major order -/

theorem context_apply (v46 : FVec Ideal S4x6x3136 .bf16) (v31 : FVec Ideal S4x64x3136 .bf16)
    (h46 : ∀ h t n, v46 (ix3 h t n) = weight P T Wq bq h t n) (h31 : ∀ h d n, v31 (ix3 h d n) = P (chan h d) n)
    (t : Fin 6) (c : Fin 256) :
    shapeCast S6x256 (transpose S6x4x64 [1, 0, 2]
        (matmul dot_S4x6x3136_S4x64x3136_S4x6x64_2_2_1_1_0_0 none v46 v31 (constant S4x6x64 .f32 0x00000000#32))
        transposes_S4x6x64_p1_0_2_S6x4x64) shapeCasts_S6x4x64_S6x256 (ix2 t c)
      = context P T Wq bq (headOf c) t (laneOf c) := by
  unfold context
  refine (join_6x4x64_apply _ _ t c).trans ?_
  refine (transpose_102_apply _ _ t (headOf c) (laneOf c)).trans ?_
  refine (headDot_pixels_apply v46 v31 (headOf c) t (laneOf c)).trans ?_
  exact Finset.sum_congr rfl fun n _ => congrArg₂ (· * ·) (h46 _ t n) (h31 _ _ n)

/-! ## The gate -/

/-- The certificate's table reads the gate's scale as a third. -/
theorem third : Named.named (F := Ideal) κ "inv_3" (φ := .f32) 0x3EAAAAAB#32 = ((1 / 3 : ℝ) : EReal) :=
  IdealRules.named_const.ideal_named_scalar _ _ _ _ rfl

theorem gate_apply (v5 : FVec Ideal S6x192 .bf16) (v13 : FVec Ideal S256x192 .bf16) (v14 : Vec Ideal S256 .f32)
    (h5 : ∀ t d, v5 (ix2 t d) = T t d) (h13 : ∀ c d, v13 (ix2 c d) = Wa c d) (h14 : ∀ c, v14 (ix1 c) = ba c)
    (t : Fin 6) (c : Fin 256) :
    mulf (minimumf (broadcast S6x256 (Scalar.ofBits .f32 0x40C00000#32 : Ideal .f32))
          (maximumf (broadcast S6x256 (Scalar.ofBits .f32 0x00000000#32 : Ideal .f32))
            (addf (addf (matmul dot_S6x192_S256x192_S6x256_1_1_0_0_n_n none v5 v13 (constant S6x256 .f32 0x00000000#32))
                    (broadcastTo S6x256 (shapeCast S1x256 v14 shapeCasts_S256_S1x256) broadcasts_S1x256_S6x256))
                  (broadcast S6x256 (Scalar.ofBits .f32 0x40400000#32 : Ideal .f32)))))
        (broadcast S6x256 (Named.named (F := Ideal) κ "inv_3" (φ := .f32) 0x3EAAAAAB#32)) (ix2 t c)
      = gate T Wa ba t c := by
  unfold gate
  rw [mulf_apply, minimumf_apply, maximumf_apply, addf_apply, affine_192_256_apply]
  simp only [broadcast_apply, h5, h13, h14, third]
  rfl

/-! ## Mixing, projecting, adding back -/

theorem mixed_apply (v23 v49 v62 : FVec Ideal S6x256 .f32) (h23 : ∀ t c, v23 (ix2 t c) = lin P Wm bm t c)
    (h49 : ∀ t c, v49 (ix2 t c) = context P T Wq bq (headOf c) t (laneOf c)) (h62 : ∀ t c, v62 (ix2 t c) = gate T Wa ba t c)
    (t : Fin 6) (c : Fin 256) :
    truncf .bf16 (mulf (addf v23 v49) v62) bitsLt_bf16_f32 (ix2 t c) = mixed P T Wm bm Wq bq Wa ba t c := by
  unfold mixed
  rw [truncf_apply, mulf_apply, addf_apply, h23, h49, h62]

theorem resid_apply (v4 : FVec Ideal S6x192 .f32) (v64 : FVec Ideal S6x256 .bf16) (v16 : FVec Ideal S192x256 .bf16)
    (v17 : Vec Ideal S192 .f32) (h4 : ∀ t d, v4 (ix2 t d) = T t d)
    (h64 : ∀ t c, v64 (ix2 t c) = mixed P T Wm bm Wq bq Wa ba t c) (h16 : ∀ d c, v16 (ix2 d c) = Wp d c)
    (h17 : ∀ d, v17 (ix1 d) = bp d) (t : Fin 6) (d : Fin 192) :
    addf v4 (addf (matmul dot_S6x256_S192x256_S6x192_1_1_0_0_n_n none v64 v16 (constant S6x192 .f32 0x00000000#32))
        (broadcastTo S6x192 (shapeCast S1x192 v17 shapeCasts_S192_S1x192) broadcasts_S1x192_S6x192)) (ix2 t d)
      = resid P T Wm bm Wq bq Wa ba Wp bp t d := by
  unfold resid proj
  rw [addf_apply, affine_256_192_apply, h4, h17]
  simp only [h64, h16]

/-! ## The body's three carried values -/

theorem pay11_apply (v4 : FVec Ideal S6x192 .f32) (v5 : FVec Ideal S6x192 .bf16) (v13 : FVec Ideal S256x192 .bf16) (v14 : Vec Ideal S256 .f32)
    (v16 : FVec Ideal S192x256 .bf16) (v17 : Vec Ideal S192 .f32) (v23 : FVec Ideal S6x256 .f32) (v31 : FVec Ideal S4x64x3136 .bf16)
    (v34 : FVec Ideal S4x6x3136 .f32)
    (h4 : ∀ t d, v4 (ix2 t d) = T t d) (h5 : ∀ t d, v5 (ix2 t d) = T t d) (h13 : ∀ c d, v13 (ix2 c d) = Wa c d)
    (h14 : ∀ c, v14 (ix1 c) = ba c) (h16 : ∀ d c, v16 (ix2 d c) = Wp d c) (h17 : ∀ d, v17 (ix1 d) = bp d)
    (h23 : ∀ t c, v23 (ix2 t c) = lin P Wm bm t c) (h31 : ∀ h d n, v31 (ix3 h d n) = P (chan h d) n)
    (h34 : ∀ h t n, v34 (ix3 h t n) = score P T Wq bq h t n) (t : Fin 6) (d : Fin 192) :
    k0_pay11 (F := Ideal) v4 v5 v13 v14 v16 v17 v23 v31 v34 (ix2 t d) = resid P T Wm bm Wq bq Wa ba Wp bp t d := by
  unfold k0_pay11
  dsimp only
  refine resid_apply P T Wm bm Wq bq Wa ba Wp bp v4 _ v16 v17 h4 (fun t c => ?_) h16 h17 t d
  refine mixed_apply P T Wm bm Wq bq Wa ba v23 _ _ h23 (fun t c => ?_) (fun t c => ?_) t c
  · refine context_apply P T Wq bq _ v31 (fun h t n => ?_) h31 t c
    refine weight_apply P T Wq bq _ _ (fun h t n => ?_) (fun h t => ?_) h t n
    · exact expo_apply P T Wq bq v34 _ h34 (fun h t => top_apply P T Wq bq v34 h34 h t) h t n
    · refine mass_apply P T Wq bq _ (fun h t n => ?_) h t
      exact expo_apply P T Wq bq v34 _ h34 (fun h t => top_apply P T Wq bq v34 h34 h t) h t n
  · exact gate_apply T Wa ba v5 v13 v14 h5 h13 h14 t c

theorem pay12_apply (v4 : FVec Ideal S6x192 .f32) (v5 : FVec Ideal S6x192 .bf16) (v13 : FVec Ideal S256x192 .bf16) (v14 : Vec Ideal S256 .f32)
    (v16 : FVec Ideal S192x256 .bf16) (v17 : Vec Ideal S192 .f32) (v23 : FVec Ideal S6x256 .f32) (v31 : FVec Ideal S4x64x3136 .bf16)
    (v34 : FVec Ideal S4x6x3136 .f32)
    (h4 : ∀ t d, v4 (ix2 t d) = T t d) (h5 : ∀ t d, v5 (ix2 t d) = T t d) (h13 : ∀ c d, v13 (ix2 c d) = Wa c d)
    (h14 : ∀ c, v14 (ix1 c) = ba c) (h16 : ∀ d c, v16 (ix2 d c) = Wp d c) (h17 : ∀ d, v17 (ix1 d) = bp d)
    (h23 : ∀ t c, v23 (ix2 t c) = lin P Wm bm t c) (h31 : ∀ h d n, v31 (ix3 h d n) = P (chan h d) n)
    (h34 : ∀ h t n, v34 (ix3 h t n) = score P T Wq bq h t n) (t : Fin 6) (u : Fin 1) :
    k0_pay12 (F := Ideal) v4 v5 v13 v14 v16 v17 v23 v31 v34 (ix2 t u) = mean P T Wm bm Wq bq Wa ba Wp bp t := by
  unfold k0_pay12 mean
  dsimp only
  rw [divf_apply]
  refine congrArg (Ideal.div · (Ideal.ofBits .f32 0x43400000#32)) ?_
  refine (Cert.LibColumnReads.shapeCast_a_a1_apply _ _ t u).trans ?_
  refine (Cert.LibRowReads.rowSum_apply _ _ _ _ _ t).trans ?_
  exact Finset.sum_congr rfl fun d _ => pay11_apply P T Wm bm Wq bq Wa ba Wp bp v4 v5 v13 v14 v16 v17 v23 v31 v34 h4 h5 h13 h14 h16 h17 h23 h31 h34 t d

theorem pay13_apply (v4 : FVec Ideal S6x192 .f32) (v5 : FVec Ideal S6x192 .bf16) (v13 : FVec Ideal S256x192 .bf16) (v14 : Vec Ideal S256 .f32)
    (v16 : FVec Ideal S192x256 .bf16) (v17 : Vec Ideal S192 .f32) (v23 : FVec Ideal S6x256 .f32) (v31 : FVec Ideal S4x64x3136 .bf16)
    (v34 : FVec Ideal S4x6x3136 .f32)
    (h4 : ∀ t d, v4 (ix2 t d) = T t d) (h5 : ∀ t d, v5 (ix2 t d) = T t d) (h13 : ∀ c d, v13 (ix2 c d) = Wa c d)
    (h14 : ∀ c, v14 (ix1 c) = ba c) (h16 : ∀ d c, v16 (ix2 d c) = Wp d c) (h17 : ∀ d, v17 (ix1 d) = bp d)
    (h23 : ∀ t c, v23 (ix2 t c) = lin P Wm bm t c) (h31 : ∀ h d n, v31 (ix3 h d n) = P (chan h d) n)
    (h34 : ∀ h t n, v34 (ix3 h t n) = score P T Wq bq h t n) (t : Fin 6) (u : Fin 1) :
    k0_pay13 (F := Ideal) v4 v5 v13 v14 v16 v17 v23 v31 v34 (ix2 t u) = var P T Wm bm Wq bq Wa ba Wp bp t := by
  unfold k0_pay13 var
  dsimp only
  rw [divf_apply]
  refine congrArg (Ideal.div · (Ideal.ofBits .f32 0x43400000#32)) ?_
  refine (Cert.LibColumnReads.shapeCast_a_a1_apply _ _ t u).trans ?_
  refine (Cert.LibRowReads.rowSum_apply _ _ _ _ _ t).trans ?_
  refine Finset.sum_congr rfl fun d _ => ?_
  rw [mulf_apply, subf_apply, Cert.LibColumnReads.broadcastTo_a1_ab_apply,
    pay11_apply P T Wm bm Wq bq Wa ba Wp bp v4 v5 v13 v14 v16 v17 v23 v31 v34 h4 h5 h13 h14 h16 h17 h23 h31 h34 t d, pay12_apply P T Wm bm Wq bq Wa ba Wp bp v4 v5 v13 v14 v16 v17 v23 v31 v34 h4 h5 h13 h14 h16 h17 h23 h31 h34 t 0]

end body

/-! ## The two stored blocks -/

theorem pay1_apply (R : Fin 6 → Fin 192 → EReal) (M V : Fin 6 → EReal) (g be : Fin 192 → EReal)
    (v18 v19 : Vec Ideal S192 .f32) (v69 : FVec Ideal S6x192 .f32) (v73 v80 : FVec Ideal S6x1 .f32)
    (h18 : ∀ d, v18 (ix1 d) = g d) (h19 : ∀ d, v19 (ix1 d) = be d) (h69 : ∀ t d, v69 (ix2 t d) = R t d)
    (h73 : ∀ t u, v73 (ix2 t u) = M t) (h80 : ∀ t u, v80 (ix2 t u) = V t) (u : Fin 1) (t : Fin 6) (d : Fin 192) :
    k0_pay1 (F := Ideal) v18 v19 v69 v73 v80 (ix3 u t d)
      = (R t d - M t) * Ideal.rsqrt (V t + Ideal.ofBits .f32 0x3727C5AC#32) * g d + be d := by
  unfold k0_pay1
  refine (shapeCast_ab_1ab_apply _ _ u t d).trans ?_
  rw [addf_apply, mulf_apply, mulf_apply, subf_apply, biasRow_apply, biasRow_apply,
    Cert.LibColumnReads.broadcastTo_a1_ab_apply, Cert.LibColumnReads.broadcastTo_a1_ab_apply, h69, h73, h18, h19]
  show _ * Ideal.rsqrt (v80 (ix2 t (0 : Fin 1)) + Ideal.ofBits .f32 0x3727C5AC#32) * _ + _ = _
  rw [h80]

theorem pay2_apply (v34 : FVec Ideal S4x6x3136 .f32) (u : Fin 1) (h : Fin 4) (t : Fin 6) (n : Fin 3136) :
    k0_pay2 (F := Ideal) v34 (ix4 u h t n) = v34 (ix3 h t n) := by
  unfold k0_pay2
  exact shapeCast_abc_1abc_apply v34 _ u h t n

end Cert.KernelBlock

end
-- ==== Proof.KernelStores.lean ====
/-
  What the body leaves in its two output blocks, read at an index: the normalised tokens of the image whose blocks it
  was given, and that image's scores.
-/
import proofs.«143514_j120259084729_1_alg».proof.Proof.Gen.KernelIdeal.Frame
import proofs.«143514_j120259084729_1_alg».proof.Proof.KernelBlock
import Idealize.ShloMosaic.Lib.Pipeline.Value

noncomputable section

namespace Cert.KernelStores

open Idealize.ShloMosaic Idealize.ShloMosaic.ValueIdx Cert.Spec Cert.KernelIdeal Cert.KernelIdeal.Gen Cert.KernelBlock

/-! The body loads and stores whole blocks: every rectangle starts at the origin. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The token block after the body, at row `t`, column `d`. -/
theorem out12_apply (x0 : Vec Ideal S1x256x3136 .f32) (x1 : Vec Ideal S1x6x192 .f32) (x2 : Vec Ideal S6x3136 .f32) (x3 : Vec Ideal S6 .f32) (x4 : Vec Ideal S256x192 .f32) (x5 : Vec Ideal S256 .f32) (x6 : Vec Ideal S256x192 .f32) (x7 : Vec Ideal S256 .f32) (x8 : Vec Ideal S192x256 .f32) (x9 : Vec Ideal S192 .f32) (x10 : Vec Ideal S192 .f32) (x11 : Vec Ideal S192 .f32) (u : Fin 1) (t : Fin 6) (d : Fin 192) :
    out0_12 (F := Ideal) x0 x1 x2 x3 x4 x5 x6 x7 x8 x9 x10 x11 (ix3 u t d) = normed (blk x0) (blk x1) (mat x2) (vec x3) (mat x4) (vec x5) (mat x6) (vec x7) (mat x8) (vec x9) (vec x10) (vec x11) t d := by
  unfold out0_12
  rw [View.canon_unit_zero hz3]
  simp only [View.ld_unit_zero (S := S1x256x3136) hz3, View.ld_unit_zero (S := S1x6x192) hz3,
    View.ld_unit_zero (S := S6x3136) hz2, View.ld_unit_zero (S := S6) hz1, View.ld_unit_zero (S := S256x192) hz2,
    View.ld_unit_zero (S := S256) hz1, View.ld_unit_zero (S := S192x256) hz2, View.ld_unit_zero (S := S192) hz1]
  unfold normed
  exact pay1_apply _ _ _ (vec x10) (vec x11) x10 x11 _ _ _ (fun _ => rfl) (fun _ => rfl)
    (fun t d => pay11_apply (blk x0) (blk x1) (mat x2) (vec x3) (mat x4) (vec x5) (mat x6) (vec x7) (mat x8) (vec x9)
      (k0_pay4 x1) (k0_pay5 x1) (k0_pay6 x6) x7 (k0_pay7 x8) x9 (k0_pay8 x0 x2 x3) (k0_pay9 x0) (k0_pay10 x0 x1 x4 x5)
      (pay4_apply x1) (pay5_apply x1) (fun _ _ => rfl) (fun _ => rfl) (fun _ _ => rfl) (fun _ => rfl) (pay8_apply x0 x2 x3) (pay9_apply x0)
      (pay10_apply x0 x1 x4 x5) t d)
    (fun t u => pay12_apply (blk x0) (blk x1) (mat x2) (vec x3) (mat x4) (vec x5) (mat x6) (vec x7) (mat x8) (vec x9)
      (k0_pay4 x1) (k0_pay5 x1) (k0_pay6 x6) x7 (k0_pay7 x8) x9 (k0_pay8 x0 x2 x3) (k0_pay9 x0) (k0_pay10 x0 x1 x4 x5)
      (pay4_apply x1) (pay5_apply x1) (fun _ _ => rfl) (fun _ => rfl) (fun _ _ => rfl) (fun _ => rfl) (pay8_apply x0 x2 x3) (pay9_apply x0)
      (pay10_apply x0 x1 x4 x5) t u)
    (fun t u => pay13_apply (blk x0) (blk x1) (mat x2) (vec x3) (mat x4) (vec x5) (mat x6) (vec x7) (mat x8) (vec x9)
      (k0_pay4 x1) (k0_pay5 x1) (k0_pay6 x6) x7 (k0_pay7 x8) x9 (k0_pay8 x0 x2 x3) (k0_pay9 x0) (k0_pay10 x0 x1 x4 x5)
      (pay4_apply x1) (pay5_apply x1) (fun _ _ => rfl) (fun _ => rfl) (fun _ _ => rfl) (fun _ => rfl) (pay8_apply x0 x2 x3) (pay9_apply x0)
      (pay10_apply x0 x1 x4 x5) t u) u t d

/-- The score block after the body, at head `h`, token `t`, pixel `n`. -/
theorem out13_apply (x0 : Vec Ideal S1x256x3136 .f32) (x1 : Vec Ideal S1x6x192 .f32) (x2 : Vec Ideal S6x3136 .f32) (x3 : Vec Ideal S6 .f32) (x4 : Vec Ideal S256x192 .f32) (x5 : Vec Ideal S256 .f32) (x6 : Vec Ideal S256x192 .f32) (x7 : Vec Ideal S256 .f32) (x8 : Vec Ideal S192x256 .f32) (x9 : Vec Ideal S192 .f32) (x10 : Vec Ideal S192 .f32) (x11 : Vec Ideal S192 .f32) (u : Fin 1) (h : Fin 4) (t : Fin 6) (n : Fin 3136) :
    out0_13 (F := Ideal) x0 x1 x2 x3 x4 x5 x6 x7 x8 x9 x10 x11 (ix4 u h t n) = score (blk x0) (blk x1) (mat x4) (vec x5) h t n := by
  unfold out0_13
  rw [View.canon_unit_zero hz4]
  simp only [View.ld_unit_zero (S := S1x256x3136) hz3, View.ld_unit_zero (S := S1x6x192) hz3,
    View.ld_unit_zero (S := S256x192) hz2, View.ld_unit_zero (S := S256) hz1]
  exact (pay2_apply _ u h t n).trans (pay10_apply x0 x1 x4 x5 h t n)

end Cert.KernelStores

end
-- ==== Proof.KernelArraysReads.lean ====
/-
  The arrays the region finds and each window's block, read at coordinates: the image flattened (a reshape of
  argument 0) and the tokens batch-major (a transpose of argument 1) are what windows 0 and 1 cut one image's block
  from, point `t` taking image `t`; every other input window is its argument whole at every point.
-/
import proofs.«143514_j120259084729_1_alg».proof.Proof.KernelStores
import proofs.«143514_j120259084729_1_alg».proof.Proof.Spec
import Idealize.ShloMosaic.Lib.Pipeline.Value
import Idealize.ShloMosaic.Lib.ValueIdx

noncomputable section

namespace Cert.KernelArrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Argument 0 as launched on core `c`. -/
abbrev A0 (c : Dev nD) : S64x256x56x56.Idx → EReal := m ((c.tc : Thread nD τ).loc main_arg0)
/-- Argument 1 as launched on core `c`. -/
abbrev A1 (c : Dev nD) : S6x64x192.Idx → EReal := m ((c.tc : Thread nD τ).loc main_arg1)
/-- Argument 2 as launched on core `c`. -/
abbrev A2 (c : Dev nD) : S6x3136.Idx → EReal := m ((c.tc : Thread nD τ).loc main_arg2)
/-- Argument 3 as launched on core `c`. -/
abbrev A3 (c : Dev nD) : S6.Idx → EReal := m ((c.tc : Thread nD τ).loc main_arg3)
/-- Argument 4 as launched on core `c`. -/
abbrev A4 (c : Dev nD) : S256x192.Idx → EReal := m ((c.tc : Thread nD τ).loc main_arg4)
/-- Argument 5 as launched on core `c`. -/
abbrev A5 (c : Dev nD) : S256.Idx → EReal := m ((c.tc : Thread nD τ).loc main_arg5)
/-- Argument 6 as launched on core `c`. -/
abbrev A6 (c : Dev nD) : S256x192.Idx → EReal := m ((c.tc : Thread nD τ).loc main_arg6)
/-- Argument 7 as launched on core `c`. -/
abbrev A7 (c : Dev nD) : S256.Idx → EReal := m ((c.tc : Thread nD τ).loc main_arg7)
/-- Argument 8 as launched on core `c`. -/
abbrev A8 (c : Dev nD) : S192x256.Idx → EReal := m ((c.tc : Thread nD τ).loc main_arg8)
/-- Argument 9 as launched on core `c`. -/
abbrev A9 (c : Dev nD) : S192.Idx → EReal := m ((c.tc : Thread nD τ).loc main_arg9)
/-- Argument 10 as launched on core `c`. -/
abbrev A10 (c : Dev nD) : S192.Idx → EReal := m ((c.tc : Thread nD τ).loc main_arg10)
/-- Argument 11 as launched on core `c`. -/
abbrev A11 (c : Dev nD) : S192.Idx → EReal := m ((c.tc : Thread nD τ).loc main_arg11)

/-! ## The two staged arrays -/

/-- The region finds the image flattened: a reshape of argument 0. -/
theorem V_v0 (c : Dev nD) : (V m c main_v0 : S64x256x3136.Idx → EReal)
    = shapeCast S64x256x3136 (A0 m c) shapeCasts_S64x256x56x56_S64x256x3136 := by
  show StableHlo.after hostOps0 (fun b => m (c, b)) (Proc.devRef .tc main_v0) = _
  after_results
  rfl

/-- The region finds the tokens batch-major: a transpose of argument 1. -/
theorem V_v1 (c : Dev nD) : (V m c main_v1 : S64x6x192.Idx → EReal)
    = transpose S64x6x192 [1, 0, 2] (A1 m c) transposes_S6x64x192_S64x6x192_1_0_2 := by
  show StableHlo.after hostOps0 (fun b => m (c, b)) (Proc.devRef .tc main_v1) = _
  after_results

/-- Pixel `n` of channel `ch` of image `b` in the flattened image is at row `n / 56`, column `n % 56`. -/
theorem V_v0_apply (c : Dev nD) (b : Fin 64) (ch : Fin 256) (n : Fin 3136) :
    (V m c main_v0 : S64x256x3136.Idx → EReal) (ix3 b ch n) = Cert.Spec.pixels (A0 m c) b ch n := by
  rw [V_v0]
  unfold Cert.Spec.pixels
  refine shapeCast_apply (A0 m c) shapeCasts_S64x256x56x56_S64x256x3136 (ix3 b ch n)
    (ix4 b ch (Cert.Spec.pixRow n) (Cert.Spec.pixCol n)) ?_
  rewrite [Shape.rowMajor_val_four, Shape.rowMajor_val_three]
  have hb := b.isLt; have hc := ch.isLt; have hn := n.isLt
  show ((b.val * 256 + ch.val) * 56 + n.val / 56) * 56 + n.val % 56 = (b.val * 256 + ch.val) * 3136 + n.val
  omega

/-- Row `t` of image `b` in the batch-major tokens is row `b` of token `t`. -/
theorem V_v1_apply (c : Dev nD) (b : Fin 64) (t : Fin 6) (d : Fin 192) :
    (V m c main_v1 : S64x6x192.Idx → EReal) (ix3 b t d) = Cert.Spec.rows (A1 m c) b t d := by
  rw [V_v1]
  unfold Cert.Spec.rows
  exact transpose_apply [1, 0, 2] (A1 m c) transposes_S6x64x192_S64x6x192_1_0_2 (ix3 b t d) (ix3 t b d) (fun a => match a with
    | ⟨0, _⟩ => rfl
    | ⟨1, _⟩ => rfl
    | ⟨2, _⟩ => rfl)

/-! ## The windows' block indices, decided over the grid -/

/-- Point `t` takes block `t` along the batch of the four moving windows, block 0 on every other axis and of every
    whole window. -/
theorem idx_facts : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_12.index t (0 : Fin 3) = t.val
    ∧ win0_12.index t (1 : Fin 3) = 0
    ∧ win0_12.index t (2 : Fin 3) = 0
    ∧ win0_13.index t (0 : Fin 4) = t.val
    ∧ win0_13.index t (1 : Fin 4) = 0
    ∧ win0_13.index t (2 : Fin 4) = 0
    ∧ win0_13.index t (3 : Fin 4) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 1) = 0 :=
  (by decide +kernel : ∀ t : Fin grid0.N, _)

/-- The image a point works on: its own number. -/
abbrev imageOf (t : Fin cfg0.N) : Fin 64 := ⟨t.val, by have := t.isLt; have hN : cfg0.N = 64 := N_0; omega⟩

/-! ## The moving input blocks -/

/-- Point `t`'s block of the flattened image is image `t`. -/
theorem iblk0_apply (c : Dev nD) (t : Fin cfg0.N) (u : Fin 1) (ch : Fin 256) (n : Fin 3136) :
    (iblk m c 0 t : S1x256x3136.Idx → EReal) (ix3 u ch n) = Cert.Spec.pixels (A0 m c) (imageOf t) ch n := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  show V m c main_v0 (((cfg0.win 0).blk t).view.emb (ix3 u ch n)) = _
  rw [← V_v0_apply]
  refine congrArg (V m c main_v0 : S64x256x3136.Idx → EReal) (funext fun a => Fin.ext ?_)
  have hu := u.isLt
  match a with
  | ⟨0, _⟩ => show win0_0.index t (0 : Fin 3) * 1 + 1 * u.val = t.val; rw [i0_0]; omega
  | ⟨1, _⟩ => show win0_0.index t (1 : Fin 3) * 256 + 1 * ch.val = ch.val; rw [i0_1]; omega
  | ⟨2, _⟩ => show win0_0.index t (2 : Fin 3) * 3136 + 1 * n.val = n.val; rw [i0_2]; omega

/-- Point `t`'s block of the batch-major tokens is image `t`'s rows. -/
theorem iblk1_apply (c : Dev nD) (t : Fin cfg0.N) (u : Fin 1) (tk : Fin 6) (d : Fin 192) :
    (iblk m c 1 t : S1x6x192.Idx → EReal) (ix3 u tk d) = Cert.Spec.rows (A1 m c) (imageOf t) tk d := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  show V m c main_v1 (((cfg0.win 1).blk t).view.emb (ix3 u tk d)) = _
  rw [← V_v1_apply]
  refine congrArg (V m c main_v1 : S64x6x192.Idx → EReal) (funext fun a => Fin.ext ?_)
  have hu := u.isLt
  match a with
  | ⟨0, _⟩ => show win0_1.index t (0 : Fin 3) * 1 + 1 * u.val = t.val; rw [i1_0]; omega
  | ⟨1, _⟩ => show win0_1.index t (1 : Fin 3) * 6 + 1 * tk.val = tk.val; rw [i1_1]; omega
  | ⟨2, _⟩ => show win0_1.index t (2 : Fin 3) * 192 + 1 * d.val = d.val; rw [i1_2]; omega

/-! ## The whole input windows -/

/-- Window 2 is argument 2 whole at every point. -/
theorem iblk2_eq (c : Dev nD) (t : Fin cfg0.N) : (iblk m c 2 t : S6x3136.Idx → EReal) = A2 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg2 (((cfg0.win 2).blk t).view.emb y) = _
  rw [V_main_arg2]
  refine congrArg (A2 m c) (funext fun a => Fin.ext ?_)
  match a with
    | ⟨0, _⟩ => show win0_2.index t (0 : Fin 2) * 6 + 1 * (y 0).val = (y 0).val; rw [i2_0]; omega
    | ⟨1, _⟩ => show win0_2.index t (1 : Fin 2) * 3136 + 1 * (y 1).val = (y 1).val; rw [i2_1]; omega

/-- Window 3 is argument 3 whole at every point. -/
theorem iblk3_eq (c : Dev nD) (t : Fin cfg0.N) : (iblk m c 3 t : S6.Idx → EReal) = A3 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg3 (((cfg0.win 3).blk t).view.emb y) = _
  rw [V_main_arg3]
  refine congrArg (A3 m c) (funext fun a => Fin.ext ?_)
  match a with
    | ⟨0, _⟩ => show win0_3.index t (0 : Fin 1) * 6 + 1 * (y 0).val = (y 0).val; rw [i3_0]; omega

/-- Window 4 is argument 4 whole at every point. -/
theorem iblk4_eq (c : Dev nD) (t : Fin cfg0.N) : (iblk m c 4 t : S256x192.Idx → EReal) = A4 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg4 (((cfg0.win 4).blk t).view.emb y) = _
  rw [V_main_arg4]
  refine congrArg (A4 m c) (funext fun a => Fin.ext ?_)
  match a with
    | ⟨0, _⟩ => show win0_4.index t (0 : Fin 2) * 256 + 1 * (y 0).val = (y 0).val; rw [i4_0]; omega
    | ⟨1, _⟩ => show win0_4.index t (1 : Fin 2) * 192 + 1 * (y 1).val = (y 1).val; rw [i4_1]; omega

/-- Window 5 is argument 5 whole at every point. -/
theorem iblk5_eq (c : Dev nD) (t : Fin cfg0.N) : (iblk m c 5 t : S256.Idx → EReal) = A5 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg5 (((cfg0.win 5).blk t).view.emb y) = _
  rw [V_main_arg5]
  refine congrArg (A5 m c) (funext fun a => Fin.ext ?_)
  match a with
    | ⟨0, _⟩ => show win0_5.index t (0 : Fin 1) * 256 + 1 * (y 0).val = (y 0).val; rw [i5_0]; omega

/-- Window 6 is argument 6 whole at every point. -/
theorem iblk6_eq (c : Dev nD) (t : Fin cfg0.N) : (iblk m c 6 t : S256x192.Idx → EReal) = A6 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg6 (((cfg0.win 6).blk t).view.emb y) = _
  rw [V_main_arg6]
  refine congrArg (A6 m c) (funext fun a => Fin.ext ?_)
  match a with
    | ⟨0, _⟩ => show win0_6.index t (0 : Fin 2) * 256 + 1 * (y 0).val = (y 0).val; rw [i6_0]; omega
    | ⟨1, _⟩ => show win0_6.index t (1 : Fin 2) * 192 + 1 * (y 1).val = (y 1).val; rw [i6_1]; omega

/-- Window 7 is argument 7 whole at every point. -/
theorem iblk7_eq (c : Dev nD) (t : Fin cfg0.N) : (iblk m c 7 t : S256.Idx → EReal) = A7 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg7 (((cfg0.win 7).blk t).view.emb y) = _
  rw [V_main_arg7]
  refine congrArg (A7 m c) (funext fun a => Fin.ext ?_)
  match a with
    | ⟨0, _⟩ => show win0_7.index t (0 : Fin 1) * 256 + 1 * (y 0).val = (y 0).val; rw [i7_0]; omega

/-- Window 8 is argument 8 whole at every point. -/
theorem iblk8_eq (c : Dev nD) (t : Fin cfg0.N) : (iblk m c 8 t : S192x256.Idx → EReal) = A8 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg8 (((cfg0.win 8).blk t).view.emb y) = _
  rw [V_main_arg8]
  refine congrArg (A8 m c) (funext fun a => Fin.ext ?_)
  match a with
    | ⟨0, _⟩ => show win0_8.index t (0 : Fin 2) * 192 + 1 * (y 0).val = (y 0).val; rw [i8_0]; omega
    | ⟨1, _⟩ => show win0_8.index t (1 : Fin 2) * 256 + 1 * (y 1).val = (y 1).val; rw [i8_1]; omega

/-- Window 9 is argument 9 whole at every point. -/
theorem iblk9_eq (c : Dev nD) (t : Fin cfg0.N) : (iblk m c 9 t : S192.Idx → EReal) = A9 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg9 (((cfg0.win 9).blk t).view.emb y) = _
  rw [V_main_arg9]
  refine congrArg (A9 m c) (funext fun a => Fin.ext ?_)
  match a with
    | ⟨0, _⟩ => show win0_9.index t (0 : Fin 1) * 192 + 1 * (y 0).val = (y 0).val; rw [i9_0]; omega

/-- Window 10 is argument 10 whole at every point. -/
theorem iblk10_eq (c : Dev nD) (t : Fin cfg0.N) : (iblk m c 10 t : S192.Idx → EReal) = A10 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg10 (((cfg0.win 10).blk t).view.emb y) = _
  rw [V_main_arg10]
  refine congrArg (A10 m c) (funext fun a => Fin.ext ?_)
  match a with
    | ⟨0, _⟩ => show win0_10.index t (0 : Fin 1) * 192 + 1 * (y 0).val = (y 0).val; rw [i10_0]; omega

/-- Window 11 is argument 11 whole at every point. -/
theorem iblk11_eq (c : Dev nD) (t : Fin cfg0.N) : (iblk m c 11 t : S192.Idx → EReal) = A11 m c := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext y
  show V m c main_arg11 (((cfg0.win 11).blk t).view.emb y) = _
  rw [V_main_arg11]
  refine congrArg (A11 m c) (funext fun a => Fin.ext ?_)
  match a with
    | ⟨0, _⟩ => show win0_11.index t (0 : Fin 1) * 192 + 1 * (y 0).val = (y 0).val; rw [i11_0]; omega

end Cert.KernelArrays

end
-- ==== Proof.KernelArraysBlocks.lean ====
/-
  From blocks to arrays. What point `t` writes back to each output array is block `t` of ONE function of the argument
  arrays: image `t`'s normalised tokens, batch-major, and image `t`'s scores with the pixels flat. A block of
  either array is one image (the block along the batch is one entry, every other axis whole), point `b` covers
  image `b`, and so the two arrays end holding those functions.
-/
import proofs.«143514_j120259084729_1_alg».proof.Proof.KernelArraysReads

noncomputable section

namespace Cert.KernelArrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The twelve arguments as launched, in order. -/
abbrev tokensArr (c : Dev nD) : S64x6x192.Idx → EReal :=
  Cert.Spec.tokensBatchMajor (A0 m c) (A1 m c) (A2 m c) (A3 m c) (A4 m c) (A5 m c) (A6 m c) (A7 m c) (A8 m c) (A9 m c) (A10 m c) (A11 m c)

abbrev scoresArr (c : Dev nD) : S64x4x6x3136.Idx → EReal :=
  Cert.Spec.scoresFlat (A0 m c) (A1 m c) (A4 m c) (A5 m c)

/-! ## Where a block's entry sits in its array -/

/-- Entry `(·, tk, d)` of point `t`'s token block is entry `(t, tk, d)` of the array. -/
theorem emb12 (t : Fin cfg0.N) (u : Fin 1) (tk : Fin 6) (d : Fin 192) :
    (((cfg0.win 12).blk t).view.emb (ix3 u tk d) : S64x6x192.Idx) = ix3 (imageOf t) tk d := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext a; apply Fin.ext
  have hu := u.isLt
  match a with
  | ⟨0, _⟩ => show win0_12.index t (0 : Fin 3) * 1 + 1 * u.val = t.val; rw [i12_0]; omega
  | ⟨1, _⟩ => show win0_12.index t (1 : Fin 3) * 6 + 1 * tk.val = tk.val; rw [i12_1]; omega
  | ⟨2, _⟩ => show win0_12.index t (2 : Fin 3) * 192 + 1 * d.val = d.val; rw [i12_2]; omega

/-- Entry `(·, h, tk, n)` of point `t`'s score block is entry `(t, h, tk, n)` of the array. -/
theorem emb13 (t : Fin cfg0.N) (u : Fin 1) (h : Fin 4) (tk : Fin 6) (n : Fin 3136) :
    (((cfg0.win 13).blk t).view.emb (ix4 u h tk n) : S64x4x6x3136.Idx) = ix4 (imageOf t) h tk n := by
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts t
  funext a; apply Fin.ext
  have hu := u.isLt
  match a with
  | ⟨0, _⟩ => show win0_13.index t (0 : Fin 4) * 1 + 1 * u.val = t.val; rw [i13_0]; omega
  | ⟨1, _⟩ => show win0_13.index t (1 : Fin 4) * 4 + 1 * h.val = h.val; rw [i13_1]; omega
  | ⟨2, _⟩ => show win0_13.index t (2 : Fin 4) * 6 + 1 * tk.val = tk.val; rw [i13_2]; omega
  | ⟨3, _⟩ => show win0_13.index t (3 : Fin 4) * 3136 + 1 * n.val = n.val; rw [i13_3]; omega

/-! ## What a point writes back -/

/-- The two moving blocks of point `t` are image `t`'s pixels and token rows. -/
theorem blk0_eq (c : Dev nD) (t : Fin cfg0.N) :
    Cert.KernelBlock.blk (iblk m c 0 t : S1x256x3136.Idx → EReal) = Cert.Spec.pixels (A0 m c) (imageOf t) :=
  funext fun ch => funext fun n => iblk0_apply m c t 0 ch n

theorem blk1_eq (c : Dev nD) (t : Fin cfg0.N) :
    Cert.KernelBlock.blk (iblk m c 1 t : S1x6x192.Idx → EReal) = Cert.Spec.rows (A1 m c) (imageOf t) :=
  funext fun tk => funext fun d => iblk1_apply m c t 0 tk d

/-- WHAT POINT `t` WRITES BACK to the token array is block `t` of the normalised tokens, batch-major. -/
theorem flushed12_eq (c : Dev nD) (t : Fin cfg0.N) :
    (dats m 0 c).flushed 12 t = ((cfg0.win 12).blk t).view.read (Elt Ideal) (tokensArr m c) := by
  show (cfg0.win 12).cut (grid0.coords t) ((dats m 0 c).after 12 t) = _
  rw [after0_12]
  funext y
  obtain ⟨u, tk, d, rfl⟩ : ∃ (u : Fin 1) (tk : Fin 6) (d : Fin 192), y = ix3 u tk d := ⟨y 0, y 1, y 2, eq_ix3 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 u tk d)
    = tokensArr m c (((cfg0.win 12).blk t).view.emb (ix3 u tk d))
  rw [emb12]
  refine (Cert.KernelStores.out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u tk d).trans ?_
  rw [blk0_eq, blk1_eq, iblk2_eq, iblk3_eq, iblk4_eq, iblk5_eq, iblk6_eq, iblk7_eq, iblk8_eq, iblk9_eq, iblk10_eq, iblk11_eq]
  rfl

/-- WHAT POINT `t` WRITES BACK to the score array is block `t` of the scores, pixels flat. -/
theorem flushed13_eq (c : Dev nD) (t : Fin cfg0.N) :
    (dats m 0 c).flushed 13 t = ((cfg0.win 13).blk t).view.read (Elt Ideal) (scoresArr m c) := by
  show (cfg0.win 13).cut (grid0.coords t) ((dats m 0 c).after 13 t) = _
  rw [after0_13]
  funext y
  obtain ⟨u, h, tk, n, rfl⟩ : ∃ (u : Fin 1) (h : Fin 4) (tk : Fin 6) (n : Fin 3136), y = ix4 u h tk n :=
    ⟨y 0, y 1, y 2, y 3, eq_ix4 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 u h tk n)
    = scoresArr m c (((cfg0.win 13).blk t).view.emb (ix4 u h tk n))
  rw [emb13]
  refine (Cert.KernelStores.out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u h tk n).trans ?_
  rw [blk0_eq, blk1_eq, iblk4_eq, iblk5_eq]
  rfl

/-! ## The blocks cover the arrays -/

/-- An index of the token array is in point `t`'s block iff each coordinate is in the block's range on its axis. -/
theorem mem_blk12 (t : Fin cfg0.N) (i : S64x6x192.Idx) :
    i ∈ ((cfg0.win 12).blk t).view.set ↔ ∀ a : Fin 3, win0_12.index t a * S1x6x192.size a ≤ (i a).val ∧ (i a).val < win0_12.index t a * S1x6x192.size a + S1x6x192.size a := by
  show i ∈ ((View.whole main_v2_0).slice (win0_12.rect t)).set ↔ _
  rw [View.set_slice_whole, Rect.mem_set_unit]
  exact Iff.rfl

/-- The same for the score array. -/
theorem mem_blk13 (t : Fin cfg0.N) (i : S64x4x6x3136.Idx) :
    i ∈ ((cfg0.win 13).blk t).view.set ↔ ∀ a : Fin 4, win0_13.index t a * S1x4x6x3136.size a ≤ (i a).val ∧ (i a).val < win0_13.index t a * S1x4x6x3136.size a + S1x4x6x3136.size a := by
  show i ∈ ((View.whole main_v2_1).slice (win0_13.rect t)).set ↔ _
  rw [View.set_slice_whole, Rect.mem_set_unit]
  exact Iff.rfl

/-- The point that works on image `b`. -/
abbrev pointOf (b : Fin 64) : Fin cfg0.N := ⟨b.val, by have := b.isLt; have hN : cfg0.N = 64 := N_0; omega⟩

/-- Every index of the token array is in the block of the point of its image. -/
theorem cover12 (i : S64x6x192.Idx) : ∃ t : Fin cfg0.N, (cfg0.win 12).flush t = true ∧ i ∈ ((cfg0.win 12).blk t).view.set := by
  have h0 : (i 0).val < 64 := (i 0).isLt
  have h1 : (i 1).val < 6 := (i 1).isLt
  have h2 : (i 2).val < 192 := (i 2).isLt
  refine ⟨pointOf ⟨(i 0).val, h0⟩, flush0_12 _, ?_⟩
  rw [mem_blk12]
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts (pointOf ⟨(i 0).val, h0⟩)
  have e0 : win0_12.index (pointOf ⟨(i 0).val, h0⟩) (0 : Fin 3) = (i 0).val := i12_0
  intro a
  match a with
  | ⟨0, _⟩ => show win0_12.index (pointOf ⟨(i 0).val, h0⟩) (0 : Fin 3) * 1 ≤ (i 0).val ∧ (i 0).val < win0_12.index (pointOf ⟨(i 0).val, h0⟩) (0 : Fin 3) * 1 + 1; rw [e0]; omega
  | ⟨1, _⟩ => show win0_12.index (pointOf ⟨(i 0).val, h0⟩) (1 : Fin 3) * 6 ≤ (i 1).val ∧ (i 1).val < win0_12.index (pointOf ⟨(i 0).val, h0⟩) (1 : Fin 3) * 6 + 6; rw [i12_1]; omega
  | ⟨2, _⟩ => show win0_12.index (pointOf ⟨(i 0).val, h0⟩) (2 : Fin 3) * 192 ≤ (i 2).val ∧ (i 2).val < win0_12.index (pointOf ⟨(i 0).val, h0⟩) (2 : Fin 3) * 192 + 192; rw [i12_2]; omega

/-- Every index of the score array is in the block of the point of its image. -/
theorem cover13 (i : S64x4x6x3136.Idx) : ∃ t : Fin cfg0.N, (cfg0.win 13).flush t = true ∧ i ∈ ((cfg0.win 13).blk t).view.set := by
  have h0 : (i 0).val < 64 := (i 0).isLt
  have h1 : (i 1).val < 4 := (i 1).isLt
  have h2 : (i 2).val < 6 := (i 2).isLt
  have h3 : (i 3).val < 3136 := (i 3).isLt
  refine ⟨pointOf ⟨(i 0).val, h0⟩, flush0_13 _, ?_⟩
  rw [mem_blk13]
  obtain ⟨i0_0, i0_1, i0_2, i1_0, i1_1, i1_2, i12_0, i12_1, i12_2, i13_0, i13_1, i13_2, i13_3, i2_0, i2_1, i3_0, i4_0, i4_1, i5_0, i6_0, i6_1, i7_0, i8_0, i8_1, i9_0, i10_0, i11_0⟩ := idx_facts (pointOf ⟨(i 0).val, h0⟩)
  have e0 : win0_13.index (pointOf ⟨(i 0).val, h0⟩) (0 : Fin 4) = (i 0).val := i13_0
  intro a
  match a with
  | ⟨0, _⟩ => show win0_13.index (pointOf ⟨(i 0).val, h0⟩) (0 : Fin 4) * 1 ≤ (i 0).val ∧ (i 0).val < win0_13.index (pointOf ⟨(i 0).val, h0⟩) (0 : Fin 4) * 1 + 1; rw [e0]; omega
  | ⟨1, _⟩ => show win0_13.index (pointOf ⟨(i 0).val, h0⟩) (1 : Fin 4) * 4 ≤ (i 1).val ∧ (i 1).val < win0_13.index (pointOf ⟨(i 0).val, h0⟩) (1 : Fin 4) * 4 + 4; rw [i13_1]; omega
  | ⟨2, _⟩ => show win0_13.index (pointOf ⟨(i 0).val, h0⟩) (2 : Fin 4) * 6 ≤ (i 2).val ∧ (i 2).val < win0_13.index (pointOf ⟨(i 0).val, h0⟩) (2 : Fin 4) * 6 + 6; rw [i13_2]; omega
  | ⟨3, _⟩ => show win0_13.index (pointOf ⟨(i 0).val, h0⟩) (3 : Fin 4) * 3136 ≤ (i 3).val ∧ (i 3).val < win0_13.index (pointOf ⟨(i 0).val, h0⟩) (3 : Fin 4) * 3136 + 3136; rw [i13_3]; omega

/-! ## The arrays after the run -/

/-- THE TOKEN ARRAY after the run: the normalised tokens, batch-major. -/
theorem final12 (c : Dev nD) : (dats m 0 c).arrAt 12 cfg0.N = tokensArr m c :=
  (dats m 0 c).arrAt_eq_of_cover 12 (tokensArr m c) (fun t _ => flushed12_eq m c t) cover12

/-- THE SCORE ARRAY after the run: the scores, pixels flat. -/
theorem final13 (c : Dev nD) : (dats m 0 c).arrAt 13 cfg0.N = scoresArr m c :=
  (dats m 0 c).arrAt_eq_of_cover 13 (scoresArr m c) (fun t _ => flushed13_eq m c t) cover13

end Cert.KernelArrays

end
-- ==== Proof.KernelArraysRun.lean ====
/-
  The kernel's run, read: every fair execution terminates with the first result at the normalised tokens and the
  second at the scores, as functions of the arguments as launched, and the arguments unchanged. The two output arrays
  after the region are the blockwise-assembled ones; the two host operations after it exchange the tokens' leading axes
  and unflatten the scores' pixels.
-/
import proofs.«143514_j120259084729_1_alg».proof.Proof.KernelArraysBlocks
import proofs.«143514_j120259084729_1_alg».proof.Proof.KernelTail

noncomputable section

namespace Cert.KernelArrays

open Cert.KernelIdeal Cert.KernelIdeal.Gen Idealize.ShloMosaic Idealize.ShloMosaic.TcCoe Idealize.SL.Sem
open Idealize.ShloMosaic.ValueIdx
open Idealize.ShloMosaic.Pipeline (Dat)

/-- The run of the kernel's program from any memory with zero counters. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v3) = Cert.Spec.tokensOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
        ∧ r.2.mem ((c.tc : Thread Cert.KernelIdeal.nD Cert.KernelIdeal.τ).loc Cert.KernelIdeal.main_v4) = Cert.Spec.scoresOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run defs _ _).mono (fun r h c => ⟨
      ((h c).2 main_v3 (Pipeline.mem_restRefs_of main_v3 (by decide) (by decide))).trans (Cert.KernelTail.tail_tokens m c (final12 m c)),
      ((h c).2 main_v4 (Pipeline.mem_restRefs_of main_v4 (by decide) (by decide))).trans (Cert.KernelTail.tail_scores m c (final13 m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.KernelArrays

end
-- ==== Proof.lean ====
/-
  Six tokens attending over an image's 3136 pixels, with a linear branch beside the attention, a gate, a projection,
  a residual and a normalisation along the tokens' width: the kernel, which handles one image per grid point, against
  the reference, which handles the whole batch of 64 at once.

  Both programs are read, at the ideal values, as ONE function of the twelve argument arrays (Proof/Spec.lean): per
  image, every stage of the kernel's body is the same stage of the reference at that image, operation by operation;
  a change of float format is the identity, a product into a zero accumulator and the host's general dot product are
  the same plain sums, a sum or a maximum along an axis is the same whatever the order. The two spellings differ in
  one place: the kernel scales the clamped gate by a third (the certificate's table names that constant), the
  reference divides it by six and doubles it; on the extended reals these agree for every value, so the inputs'
  finiteness is never used. The kernel's blocks tile its two result arrays, one image per point, and the host
  operations after it (a transposition of the two leading axes, a reshape of the pixels to 56 × 56) are read at an
  index.
-/
import proofs.«143514_j120259084729_1_alg».proof.Defs
import proofs.«143514_j120259084729_1_alg».proof.Proof.Gen.Kernel
import proofs.«143514_j120259084729_1_alg».proof.Proof.Gen.Kernel.Skeleton
import proofs.«143514_j120259084729_1_alg».proof.Proof.Gen.Kernel.Launch
import proofs.«143514_j120259084729_1_alg».proof.Proof.Gen.Kernel.Points
import proofs.«143514_j120259084729_1_alg».proof.Proof.Gen.Kernel.Frame
import proofs.«143514_j120259084729_1_alg».proof.Proof.Gen.KernelIdeal
import proofs.«143514_j120259084729_1_alg».proof.Proof.Gen.KernelIdeal.Skeleton
import proofs.«143514_j120259084729_1_alg».proof.Proof.Gen.KernelIdeal.Launch
import proofs.«143514_j120259084729_1_alg».proof.Proof.Gen.KernelIdeal.Points
import proofs.«143514_j120259084729_1_alg».proof.Proof.Gen.KernelIdeal.Frame
import proofs.«143514_j120259084729_1_alg».proof.Proof.Gen.ReferenceIdeal
import proofs.«143514_j120259084729_1_alg».proof.Proof.Gen.ReferenceIdeal.Run
import proofs.«143514_j120259084729_1_alg».proof.Proof.Gen.ReferenceIdeal.Read
import proofs.«143514_j120259084729_1_alg».proof.Proof.Gen.Pre_finite_inputs
import proofs.«143514_j120259084729_1_alg».proof.Proof.Spec
import proofs.«143514_j120259084729_1_alg».proof.Proof.RefScores
import proofs.«143514_j120259084729_1_alg».proof.Proof.RefNorm
import proofs.«143514_j120259084729_1_alg».proof.Proof.KernelTail
import proofs.«143514_j120259084729_1_alg».proof.Proof.KernelArraysRun
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the gate's scale is the third the certificate's table gives it. -/
theorem preserves : Cert.preserves_Kernel_KernelIdeal :=
  IdealRules.named_const.statement Cert.KernelIdeal.κ "inv_3" .f32 0x3EAAAAAB#32 ((1 / 3 : ℝ) : EReal) rfl

/-- Both programs end with the normalised tokens and the scores of the specification, of arguments that agree. -/
theorem algebraic : Cert.algebraic_KernelIdeal_ReferenceIdeal := by
  intro m ρ m' ρ' _ hagree
  refine ⟨_, _, Cert.KernelArrays.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v70_eq, Cert.RefValue.ref_tokens, a0, a1, a2, a3, a4, a5, a6, a7, a8, a9, a10, a11]
  · obtain ⟨a0, a1, a2, a3, a4, a5, a6, a7, a8, a9, a10, a11⟩ := hagree c
    rw [Cert.ReferenceIdeal.Read.val_main_v71_eq, Cert.RefValue.ref_scores, a0, a1, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
